-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S3x2x128x32 : Shape := ⟨4, ![3, 2, 128, 32]⟩
abbrev S3x32 : Shape := ⟨2, ![3, 32]⟩
abbrev S3x2x32x40 : Shape := ⟨4, ![3, 2, 32, 40]⟩
abbrev S3x40 : Shape := ⟨2, ![3, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x2x128x32 : S_.BroadcastsInDim S3x2x128x32 (![] : Fin 0 → Fin S3x2x128x32.rank)
  reducesTo_S3x2x128x32_S_d0_1_2_3 : S3x2x128x32.ReducesTo [0, 1, 2, 3] S_
  bcast_S_S3x32 : S_.BroadcastsInDim S3x32 (![] : Fin 0 → Fin S3x32.rank)
  reducesTo_S3x32_S_d0_1 : S3x32.ReducesTo [0, 1] S_
  bcast_S_S3x2x32x40 : S_.BroadcastsInDim S3x2x32x40 (![] : Fin 0 → Fin S3x2x32x40.rank)
  reducesTo_S3x2x32x40_S_d0_1_2_3 : S3x2x32x40.ReducesTo [0, 1, 2, 3] S_
  bcast_S_S3x40 : S_.BroadcastsInDim S3x40 (![] : Fin 0 → Fin S3x40.rank)
  reducesTo_S3x40_S_d0_1 : S3x40.ReducesTo [0, 1] S_

variable [Facts]

def fn_part1 {F : FTy → Type} [FloatOps F] (main_arg5 : FVec F S3x40 .f32) (main_v13 : IVec S_ 1) (main_v16 : IVec S3x2x32x40 1) : IVec S_ 1 :=
  let main_c_5 : IVec S_ 1 := constantI S_ 1 1#1
  let main_v17 : IVec S_ 1 := (fun x v => Host.reduce IntOp.andi x v reducesTo_S3x2x32x40_S_d0_1_2_3 h_S_) main_v16 main_c_5
  let main_v18 : IVec S_ 1 := andi main_v13 main_v17
  let main_v19 : FVec F S3x40 .f32 := Host.absf main_arg5
  let main_cst_6 : FVec F S_ .f32 := constant S_ .f32 0x7F800000#32
  let main_v20 : FVec F S3x40 .f32 := broadcastInDim S3x40 ![] bcast_S_S3x40 main_cst_6
  let main_v21 : IVec S3x40 1 := cmpf .olt main_v19 main_v20
  let main_c_7 : IVec S_ 1 := constantI S_ 1 1#1
  let main_v22 : IVec S_ 1 := (fun x v => Host.reduce IntOp.andi x v reducesTo_S3x40_S_d0_1 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S3x2x128x32 .f32) (main_arg3 : FVec F S3x32 .f32) (main_arg4 : FVec F S3x2x32x40 .f32) (main_arg5 : FVec F S3x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x2x128x32 .f32 := Host.absf main_arg2
  let main_cst_0 : FVec F S_ .f32 := constant S_ .f32 0x7F800000#32
  let main_v5 : FVec F S3x2x128x32 .f32 := broadcastInDim S3x2x128x32 ![] bcast_S_S3x2x128x32 main_cst_0
  let main_v6 : IVec S3x2x128x32 1 := cmpf .olt main_v4 main_v5
  let main_c_1 : IVec S_ 1 := constantI S_ 1 1#1
  let main_v7 : IVec S_ 1 := (fun x v => Host.reduce IntOp.andi x v reducesTo_S3x2x128x32_S_d0_1_2_3 h_S_) main_v6 main_c_1
  let main_v8 : IVec S_ 1 := andi main_v3 main_v7
  let main_v9 : FVec F S3x32 .f32 := Host.absf main_arg3
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S3x2x32x40 .f32 := Host.absf main_arg4
  let main_cst_4 : FVec F S_ .f32 := constant S_ .f32 0x7F800000#32
  let main_v15 : FVec F S3x2x32x40 .f32 := broadcastInDim S3x2x32x40 ![] bcast_S_S3x2x32x40 main_cst_4
  let main_v16 : IVec S3x2x32x40 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S3x2x128x32 : Shape := ⟨4, ![3, 2, 128, 32]⟩
abbrev S3x32 : Shape := ⟨2, ![3, 32]⟩
abbrev S3x2x32x40 : Shape := ⟨4, ![3, 2, 32, 40]⟩
abbrev S3x40 : Shape := ⟨2, ![3, 40]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S3x1x128x32 : Shape := ⟨4, ![3, 1, 128, 32]⟩
abbrev S3x128x32 : Shape := ⟨3, ![3, 128, 32]⟩
abbrev S128x32 : Shape := ⟨2, ![128, 32]⟩
abbrev S32 : Shape := ⟨1, ![32]⟩
abbrev S3x1x32x40 : Shape := ⟨4, ![3, 1, 32, 40]⟩
abbrev S3x32x40 : Shape := ⟨3, ![3, 32, 40]⟩
abbrev S32x40 : Shape := ⟨2, ![32, 40]⟩
abbrev S40 : Shape := ⟨1, ![40]⟩
abbrev S600000x128 : Shape := ⟨2, ![600000, 128]⟩
abbrev S1x32 : Shape := ⟨2, ![1, 32]⟩
abbrev S100000x32 : Shape := ⟨2, ![100000, 32]⟩
abbrev S4000x128 : Shape := ⟨2, ![4000, 128]⟩
abbrev S4000x32 : Shape := ⟨2, ![4000, 32]⟩
abbrev S600000x32 : Shape := ⟨2, ![600000, 32]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 111
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S3x2x128x32, .f32⟩
  | .hbm, ⟨3, _⟩ => ⟨S3x32, .f32⟩
  | .hbm, ⟨4, _⟩ => ⟨S3x2x32x40, .f32⟩
  | .hbm, ⟨5, _⟩ => ⟨S3x40, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S100000, .f32⟩
  | .hbm, ⟨14, _⟩ => ⟨S600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000, .f32⟩
  | .hbm, ⟨36, _⟩ => ⟨S600000, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000, .f32⟩
  | .hbm, ⟨46, _⟩ => ⟨S600000, .f32⟩
  | .hbm, ⟨47, _⟩ => ⟨S3x1x128x32, .f32⟩
  | .hbm, ⟨48, _⟩ => ⟨S3x128x32, .f32⟩
  | .hbm, ⟨49, _⟩ => ⟨S_, .f32⟩
  | .hbm, ⟨50, _⟩ => ⟨S128x32, .f32⟩
  | .hbm, ⟨51, _⟩ => ⟨S3x1x128x32, .f32⟩
  | .hbm, ⟨52, _⟩ => ⟨S3x128x32, .f32⟩
  | .hbm, ⟨53, _⟩ => ⟨S_, .f32⟩
  | .hbm, ⟨54, _⟩ => ⟨S128x32, .f32⟩
  | .hbm, ⟨55, _⟩ => ⟨S_, .f32⟩
  | .hbm, ⟨56, _⟩ => ⟨S32, .f32⟩
  | .hbm, ⟨57, _⟩ => ⟨S3x1x32x40, .f32⟩
  | .hbm, ⟨58, _⟩ => ⟨S3x32x40, .f32⟩
  | .hbm, ⟨59, _⟩ => ⟨S_, .f32⟩
  | .hbm, ⟨60, _⟩ => ⟨S32x40, .f32⟩
  | .hbm, ⟨61, _⟩ => ⟨S3x1x32x40, .f32⟩
  | .hbm, ⟨62, _⟩ => ⟨S3x32x40, .f32⟩
  | .hbm, ⟨63, _⟩ => ⟨S_, .f32⟩
  | .hbm, ⟨64, _⟩ => ⟨S32x40, .f32⟩
  | .hbm, ⟨65, _⟩ => ⟨S_, .f32⟩
  | .hbm, ⟨66, _⟩ => ⟨S40, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S600000x1, .f32⟩
  | .hbm, ⟨77, _⟩ => ⟨S600000x128, .f32⟩
  | .hbm, ⟨78, _⟩ => ⟨S600000x128, .f32⟩
  | .hbm, ⟨79, _⟩ => ⟨S_, .f32⟩
  | .hbm, ⟨80, _⟩ => ⟨S100000x128, .f32⟩
  | .hbm, ⟨81, _⟩ => ⟨S600000x1, .i32⟩
  | .hbm, ⟨82, _⟩ => ⟨S100000x128, .f32⟩
  | .hbm, ⟨83, _⟩ => ⟨S100000x128, .bf16⟩
  | .hbm, ⟨84, _⟩ => ⟨S100000x128, .bf16⟩
  | .hbm, ⟨85, _⟩ => ⟨S128x32, .bf16⟩
  | .hbm, ⟨86, _⟩ => ⟨S128x32, .bf16⟩
  | .hbm, ⟨87, _⟩ => ⟨S1x32, .f32⟩
  | .hbm, ⟨88, _⟩ => ⟨S100000x32, .f32⟩
  | .hbm, ⟨89, _⟩ => ⟨S_, .i32⟩
  | .hbm, ⟨90, _⟩ => ⟨S600000, .i32⟩
  | .hbm, ⟨91, _⟩ => ⟨S600000, .i1⟩
  | .hbm, ⟨92, _⟩ => ⟨S_, .i32⟩
  | .hbm, ⟨93, _⟩ => ⟨S600000, .i32⟩
  | .hbm, ⟨94, _⟩ => ⟨S600000, .i32⟩
  | .hbm, ⟨95, _⟩ => ⟨S600000, .i32⟩
  | .hbm, ⟨96, _⟩ => ⟨S600000x1, .i32⟩
  | .hbm, ⟨97, _⟩ => ⟨S600000x32, .f32⟩
  | .hbm, ⟨98, _⟩ => ⟨S600000x1, .f32⟩
  | .hbm, ⟨99, _⟩ => ⟨S600000x32, .f32⟩
  | .hbm, ⟨100, _⟩ => ⟨S600000x32, .f32⟩
  | .hbm, ⟨101, _⟩ => ⟨S_, .f32⟩
  | .hbm, ⟨102, _⟩ => ⟨S100000x32, .f32⟩
  | .hbm, ⟨103, _⟩ => ⟨S600000x1, .i32⟩
  | .hbm, ⟨104, _⟩ => ⟨S100000x32, .f32⟩
  | .hbm, ⟨105, _⟩ => ⟨S100000x32, .bf16⟩
  | .hbm, ⟨106, _⟩ => ⟨S100000x32, .bf16⟩
  | .hbm, ⟨107, _⟩ => ⟨S32x40, .bf16⟩
  | .hbm, ⟨108, _⟩ => ⟨S32x40, .bf16⟩
  | .hbm, ⟨109, _⟩ => ⟨S1x40, .f32⟩
  | .hbm, ⟨110, _⟩ => ⟨S100000x40, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S128x32, .bf16⟩
  | .local _ .vmem, ⟨5, _⟩ => ⟨S128x32, .bf16⟩
  | .local _ .vmem, ⟨6, _⟩ => ⟨S1x32, .f32⟩
  | .local _ .vmem, ⟨7, _⟩ => ⟨S4000x32, .f32⟩
  | .local _ .vmem, ⟨8, _⟩ => ⟨S4000x32, .f32⟩
  | .local _ .vmem, ⟨9, _⟩ => ⟨S4000x32, .bf16⟩
  | .local _ .vmem, ⟨10, _⟩ => ⟨S4000x32, .bf16⟩
  | .local _ .vmem, ⟨11, _⟩ => ⟨S4000x32, .bf16⟩
  | .local _ .vmem, ⟨12, _⟩ => ⟨S4000x32, .bf16⟩
  | .local _ .vmem, ⟨13, _⟩ => ⟨S32x40, .bf16⟩
  | .local _ .vmem, ⟨14, _⟩ => ⟨S32x40, .bf16⟩
  | .local _ .vmem, ⟨15, _⟩ => ⟨S1x40, .f32⟩
  | .local _ .vmem, ⟨16, _⟩ => ⟨S4000x40, .f32⟩
  | .local _ .vmem, ⟨17, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_c_13 : Ref sig .tc := ⟨.hbm, 67, rfl⟩
abbrev main_v44 : Ref sig .tc := ⟨.hbm, 68, rfl⟩
abbrev main_v45 : Ref sig .tc := ⟨.hbm, 69, rfl⟩
abbrev main_c_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_15 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_16 : Ref sig .tc := ⟨.hbm, 89, rfl⟩
abbrev main_v63 : Ref sig .tc := ⟨.hbm, 90, rfl⟩
abbrev main_v64 : Ref sig .tc := ⟨.hbm, 91, rfl⟩
abbrev main_c_17 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x40 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  slices_S3x2x128x32_S3x1x128x32_0_0_0_0 : S3x2x128x32.Slices ![0, 0, 0, 0] S3x1x128x32
  shapeCasts_S3x1x128x32_S3x128x32 : S3x1x128x32.ShapeCasts S3x128x32
  reducesTo_S3x128x32_S128x32_d0 : S3x128x32.ReducesTo [0] S128x32
  h_S_ : 0 < S_.numel
  slices_S3x2x128x32_S3x1x128x32_0_1_0_0 : S3x2x128x32.Slices ![0, 1, 0, 0] S3x1x128x32
  reducesTo_S3x32_S32_d0 : S3x32.ReducesTo [0] S32
  slices_S3x2x32x40_S3x1x32x40_0_0_0_0 : S3x2x32x40.Slices ![0, 0, 0, 0] S3x1x32x40
  shapeCasts_S3x1x32x40_S3x32x40 : S3x1x32x40.ShapeCasts S3x32x40
  reducesTo_S3x32x40_S32x40_d0 : S3x32x40.ReducesTo [0] S32x40
  slices_S3x2x32x40_S3x1x32x40_0_1_0_0 : S3x2x32x40.Slices ![0, 1, 0, 0] S3x1x32x40
  reducesTo_S3x40_S40_d0 : S3x40.ReducesTo [0] S40
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bitsLt_bf16_f32 : FTy.bits .bf16 < FTy.bits .f32
  shapeCasts_S32_S1x32 : S32.ShapeCasts S1x32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  bcast_S600000x1_S600000x32_0_1 : S600000x1.BroadcastsInDim S600000x32 (![0, 1] : Fin 2 → Fin S600000x32.rank)
  bcast_S_S100000x32 : S_.BroadcastsInDim S100000x32 (![] : Fin 0 → Fin S100000x32.rank)
  shapeCasts_S40_S1x40 : S40.ShapeCasts S1x40
  shapeCasts_S4000x32_S4000x32 : S4000x32.ShapeCasts S4000x32
  inb_S32x40_S32x40_0_0 : ∀ a, (![0, 0] : Fin 2 → Nat) a + S32x40.size a ≤ S32x40.size a
  h_S32x40 : 0 < S32x40.numel
  shapeCasts_S32x40_S32x40 : S32x40.ShapeCasts S32x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x32_S4000x32_1_0_0_1_n_n_wf : DotDims.WF S4000x128 S128x32 S4000x32 [1] [0] [0] [1] [] []
  gather_S100000x32_S600000x1_S600000x32_1_0_n_n_0_1_132_wf : GatherDims.WF S100000x32 S600000x1 S600000x32 [1] [0] [] [0] [] 1 ![1, 32]
  scatter_S100000x32_S600000x1_S600000x32_1_0_0_1_wf : ScatterDims.WF S100000x32 S600000x1 S600000x32 [1] [0] [0] 1
  dot_S4000x32_S32x40_S4000x40_1_0_0_1_n_n_wf : DotDims.WF S4000x32 S32x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .bf16 = 32 ∨ (Rect.block (s := S128x32) S128x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .bf16 = 32 ∨ (Rect.block (s := S128x32) S128x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x32.size a ≤ S100000x32.size a
  hwx0_5 : ∀ i : grid0.Coords, EltTy.bits .f32 = 32 ∨ (Rect.block (s := S100000x32) S4000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .bf16 = 32 ∨ (Rect.block (s := S100000x32) S4000x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S100000x32.size a
  hwx1_1 : ∀ i : grid1.Coords, EltTy.bits .bf16 = 32 ∨ (Rect.block (s := S100000x32) S4000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x40.size a ≤ S32x40.size a
  hwx1_2 : ∀ i : grid1.Coords, EltTy.bits .bf16 = 32 ∨ (Rect.block (s := S32x40) S32x40.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x40.size a ≤ S32x40.size a
  hwx1_3 : ∀ i : grid1.Coords, EltTy.bits .bf16 = 32 ∨ (Rect.block (s := S32x40) S32x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x40.size a ≤ S100000x40.size a
  hwx1_5 : ∀ i : grid1.Coords, EltTy.bits .f32 = 32 ∨ (Rect.block (s := S100000x40) S4000x40.size (cc1_transform_5 i) (hinb1_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def gather_S100000x32_S600000x1_S600000x32_1_0_n_n_0_1_132 : GatherDims S100000x32 S600000x1 S600000x32 where
  offsetDims := [1]
  collapsedSliceDims := [0]
  operandBatchingDims := []
  startIndicesBatchingDims := []
  startIndexMap := [0]
  indexVectorDim := 1
  sliceSizes := ![1, 32]
  wf := gather_S100000x32_S600000x1_S600000x32_1_0_n_n_0_1_132_wf
def scatter_S100000x32_S600000x1_S600000x32_1_0_0_1 : ScatterDims S100000x32 S600000x1 S600000x32 where
  updateWindowDims := [1]
  insertedWindowDims := [0]
  scatterDimsToOperandDims := [0]
  indexVectorDim := 1
  wf := scatter_S100000x32_S600000x1_S600000x32_1_0_0_1_wf
def dot_S4000x32_S32x40_S4000x40_1_0_0_1_n_n : DotDims S4000x32 S32x40 S4000x40 where
  lhsContracting := [1]
  rhsContracting := [0]
  lhsNonContracting := [0]
  rhsNonContracting := [1]
  lhsBatch := []
  rhsBatch := []
  wf := dot_S4000x32_S32x40_S4000x40_1_0_0_1_n_n_wf

abbrev win0_0 : Pipeline.Window sig grid0 :=
  Pipeline.Window.ofSpec (Memref.whole main_v57) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v61) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v62) S4000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v76) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v77) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v78) S32x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S32x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v80) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v81) S4000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S3x2x128x32 : Shape := ⟨4, ![3, 2, 128, 32]⟩
abbrev S3x32 : Shape := ⟨2, ![3, 32]⟩
abbrev S3x2x32x40 : Shape := ⟨4, ![3, 2, 32, 40]⟩
abbrev S3x40 : Shape := ⟨2, ![3, 40]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S3x1x128x32 : Shape := ⟨4, ![3, 1, 128, 32]⟩
abbrev S3x128x32 : Shape := ⟨3, ![3, 128, 32]⟩
abbrev S128x32 : Shape := ⟨2, ![128, 32]⟩
abbrev S100000x32 : Shape := ⟨2, ![100000, 32]⟩
abbrev S32 : Shape := ⟨1, ![32]⟩
abbrev S1x32 : Shape := ⟨2, ![1, 32]⟩
abbrev S600000x32 : Shape := ⟨2, ![600000, 32]⟩
abbrev S3x1x32x40 : Shape := ⟨4, ![3, 1, 32, 40]⟩
abbrev S3x32x40 : Shape := ⟨3, ![3, 32, 40]⟩
abbrev S32x40 : Shape := ⟨2, ![32, 40]⟩
abbrev S100000x40 : Shape := ⟨2, ![100000, 40]⟩
abbrev S40 : Shape := ⟨1, ![40]⟩
abbrev S1x40 : Shape := ⟨2, ![1, 40]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x600000, .i32⟩
  | 2 => ⟨S3x2x128x32, .f32⟩
  | 3 => ⟨S3x32, .f32⟩
  | 4 => ⟨S3x2x32x40, .f32⟩
  | 5 => ⟨S3x40, .f32⟩
  | 6 => ⟨S1x600000, .i32⟩
  | 7 => ⟨S600000, .i32⟩
  | 8 => ⟨S1x600000, .i32⟩
  | 9 => ⟨S600000, .i32⟩
  | 10 => ⟨S_, .f32⟩
  | 11 => ⟨S600000, .f32⟩
  | 12 => ⟨S_, .f32⟩
  | 13 => ⟨S100000, .f32⟩
  | 14 => ⟨S600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000, .f32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x1, .f32⟩
  | 57 => ⟨S600000x128, .f32⟩
  | 58 => ⟨S600000x128, .f32⟩
  | 59 => ⟨S_, .f32⟩
  | 60 => ⟨S100000x128, .f32⟩
  | 61 => ⟨S600000x1, .i32⟩
  | 62 => ⟨S100000x128, .f32⟩
  | 63 => ⟨S3x1x128x32, .f32⟩
  | 64 => ⟨S3x128x32, .f32⟩
  | 65 => ⟨S_, .f32⟩
  | 66 => ⟨S128x32, .f32⟩
  | 67 => ⟨S100000x32, .f32⟩
  | 68 => ⟨S3x1x128x32, .f32⟩
  | 69 => ⟨S3x128x32, .f32⟩
  | 70 => ⟨S_, .f32⟩
  | 71 => ⟨S128x32, .f32⟩
  | 72 => ⟨S100000x32, .f32⟩
  | 73 => ⟨S100000x32, .f32⟩
  | 74 => ⟨S_, .f32⟩
  | 75 => ⟨S32, .f32⟩
  | 76 => ⟨S1x32, .f32⟩
  | 77 => ⟨S100000x32, .f32⟩
  | 78 => ⟨S100000x32, .f32⟩
  | 79 => ⟨S_, .f32⟩
  | 80 => ⟨S100000x32, .f32⟩
  | 81 => ⟨S100000x32, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x32, .f32⟩
  | 91 => ⟨S600000x1, .f32⟩
  | 92 => ⟨S600000x32, .f32⟩
  | 93 => ⟨S600000x32, .f32⟩
  | 94 => ⟨S_, .f32⟩
  | 95 => ⟨S100000x32, .f32⟩
  | 96 => ⟨S600000x1, .i32⟩
  | 97 => ⟨S100000x32, .f32⟩
  | 98 => ⟨S3x1x32x40, .f32⟩
  | 99 => ⟨S3x32x40, .f32⟩
  | 100 => ⟨S_, .f32⟩
  | 101 => ⟨S32x40, .f32⟩
  | 102 => ⟨S100000x40, .f32⟩
  | 103 => ⟨S3x1x32x40, .f32⟩
  | 104 => ⟨S3x32x40, .f32⟩
  | 105 => ⟨S_, .f32⟩
  | 106 => ⟨S32x40, .f32⟩
  | 107 => ⟨S100000x40, .f32⟩
  | 108 => ⟨S100000x40, .f32⟩
  | 109 => ⟨S_, .f32⟩
  | 110 => ⟨S40, .f32⟩
  | 111 => ⟨S1x40, .f32⟩
  | 112 => ⟨S100000x40, .f32⟩
  | 113 => ⟨S100000x40, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x40, .f32⟩
  | 121 => ⟨S100000x40, .f32⟩
  | 122 => ⟨S100000x40, .f32⟩
  | 123 => ⟨S_, .f32⟩
  | 124 => ⟨S100000, .f32⟩
  | 125 => ⟨S100000x1, .f32⟩
  | 126 => ⟨S100000x1, .f32⟩
  | 127 => ⟨S100000x40, .f32⟩
  | _ => ⟨S100000x128, .f32⟩

abbrev hbmTy0_1 (i : Nat) : BufTy := match i % 128 with
  | 0 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call2_cst : Ref sig .tc := ⟨.hbm, 114, rfl⟩
abbrev main_call2_v0 : Ref sig .tc := ⟨.hbm, 115, rfl⟩
abbrev main_call2_cst_0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_cst_1 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S3x2x128x32_S3x1x128x32_0_0_0_0 : S3x2x128x32.Slices ![0, 0, 0, 0] S3x1x128x32
  shapeCasts_S3x1x128x32_S3x128x32 : S3x1x128x32.ShapeCasts S3x128x32
  reducesTo_S3x128x32_S128x32_d0 : S3x128x32.ReducesTo [0] S128x32
  h_S_ : 0 < S_.numel
  slices_S3x2x128x32_S3x1x128x32_0_1_0_0 : S3x2x128x32.Slices ![0, 1, 0, 0] S3x1x128x32
  reducesTo_S3x32_S32_d0 : S3x32.ReducesTo [0] S32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S600000x1_S600000x32_0_1 : S600000x1.BroadcastsInDim S600000x32 (![0, 1] : Fin 2 → Fin S600000x32.rank)
  slices_S3x2x32x40_S3x1x32x40_0_0_0_0 : S3x2x32x40.Slices ![0, 0, 0, 0] S3x1x32x40
  shapeCasts_S3x1x32x40_S3x32x40 : S3x1x32x40.ShapeCasts S3x32x40
  reducesTo_S3x32x40_S32x40_d0 : S3x32x40.ReducesTo [0] S32x40
  slices_S3x2x32x40_S3x1x32x40_0_1_0_0 : S3x2x32x40.Slices ![0, 1, 0, 0] S3x1x32x40
  reducesTo_S3x40_S40_d0 : S3x40.ReducesTo [0] S40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x32_S100000x32_1_0_0_1_n_n_wf : DotDims.WF S100000x128 S128x32 S100000x32 [1] [0] [0] [1] [] []
  gather_S100000x32_S600000x1_S600000x32_1_0_n_n_0_1_132_wf : GatherDims.WF S100000x32 S600000x1 S600000x32 [1] [0] [] [0] [] 1 ![1, 32]
  scatter_S100000x32_S600000x1_S600000x32_1_0_0_1_wf : ScatterDims.WF S100000x32 S600000x1 S600000x32 [1] [0] [0] 1
  dot_S100000x32_S32x40_S100000x40_1_0_0_1_n_n_wf : DotDims.WF S100000x32 S32x40 S100000x40 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S600000x1_S600000x32_1_0_n_n_0_1_132 : GatherDims S100000x32 S600000x1 S600000x32 where
  offsetDims := [1]
  collapsedSliceDims := [0]
  operandBatchingDims := []
  startIndicesBatchingDims := []
  startIndexMap := [0]
  indexVectorDim := 1
  sliceSizes := ![1, 32]
  wf := gather_S100000x32_S600000x1_S600000x32_1_0_n_n_0_1_132_wf
def scatter_S100000x32_S600000x1_S600000x32_1_0_0_1 : ScatterDims S100000x32 S600000x1 S600000x32 where
  updateWindowDims := [1]
  insertedWindowDims := [0]
  scatterDimsToOperandDims := [0]
  indexVectorDim := 1
  wf := scatter_S100000x32_S600000x1_S600000x32_1_0_0_1_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf

class Facts : Prop extends Facts₀ where

variable [Facts]
-- ==== Proof.KernelRun.lean ====
/-
  The idealized kernel's run with its result named.

  The program is six segments: three stretches of host operations, the first layer's grid of 25 points,
  one more stretch of host operations, the second layer's grid. Every weakly fair execution runs them in
  order and ends with each buffer at the contents the last boundary names; read at the result buffer that
  is the array the second grid's write-backs leave, and at each argument buffer the launch contents.
-/
import proofs.«117465_j4320737100470_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the
    contents the last segment boundary gives it and every argument buffer as launched. -/
theorem run_named : θ_run defs (onTc (τ := τ) (main (F := F))) ⟨m, fun _ => 0, ρ⟩ (fun r => ∀ c : Dev nD,
      r.2.mem ((c.tc : Thread nD τ).loc main_v81) = W6 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v81 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.LibTypedRef.lean ====
/-
  A typed reference's two transports cancel.

  A tensor value's buffer is addressed through a reference that carries the value's type; contents move between
  "contents at the value's type" and "contents of the buffer" along the equation between the two types. Moving
  there and back is the identity, whatever the equation's proof.
-/
import Idealize.ShloMosaic.Lib.StableHlo

namespace Idealize.ShloMosaic.StableHlo.TRef

/-- Contents taken to the buffer's own type and brought back are the contents. -/
theorem ofBuf_toBuf {sig : RefSig} {Val : EltTy → Type} {T : BufTy} (x : TRef sig T) (v : T.Contents Val) :
    x.ofBuf (x.toBuf v) = v := by
  obtain ⟨r, h, hd, hu⟩ := x; subst h; rfl

/-- Contents brought from the buffer's own type and taken back are the contents. -/
theorem toBuf_ofBuf {sig : RefSig} {Val : EltTy → Type} {T : BufTy} (x : TRef sig T) (v : x.ref.ty.Contents Val) :
    x.toBuf (x.ofBuf v) = v := by
  obtain ⟨r, h, hd, hu⟩ := x; subst h; rfl

end Idealize.ShloMosaic.StableHlo.TRef
-- ==== Proof.RefStages.lean ====
/-
  The reference program's run, read stage by stage.

  The reference is one straight line of 123 host operations. Cut after the edge weights, after the hidden
  layer, after the hidden layer's propagated copy, before the log-softmax and at the end, the buffer contents at each cut are the
  fold of that stretch's operations over the contents at the cut before. At each cut the few buffers that
  later stretches read are named as functions of the program's six arguments: the two index rows and the
  edge weights `-d(row)·d(col)` (`d` the inverse square root of the clamped degree, zero at isolated nodes);
  the hidden layer; its propagated copy; the output layer before its log-softmax; the result. Every weakly fair execution ends with the result
  buffer at the last of these and the arguments as launched.
-/
import proofs.«117465_j4320737100470_1_alg».proof.Proof.RefRun
import proofs.«117465_j4320737100470_1_alg».proof.Proof.RefRead
import proofs.«117465_j4320737100470_1_alg».proof.Proof.LibTypedRef

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Folding a line of operations made of two stretches is folding the second over what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (m : (ℓ : Loc nD τ sig) → Buf (Elt F) ℓ) (c : Dev nD)

/-- The buffers after the first stretch (through the edge weights). -/
def WA : Valuation τ sig (Elt F) := after opsA (launchContents m c)
/-- The buffers after the second stretch (through the hidden layer). -/
def WB : Valuation τ sig (Elt F) := after opsB (WA m c)
/-- The buffers after the third stretch (through the hidden layer's propagated copy). -/
def WC : Valuation τ sig (Elt F) := after opsC (WB m c)
/-- The buffers after the fourth stretch (through the output layer before its log-softmax). -/
def WD : Valuation τ sig (Elt F) := after opsD (WC m c)
/-- The buffers at the end. -/
def WE : Valuation τ sig (Elt F) := after opsE (WD m c)

theorem after_ops : after ops (launchContents m c) = WE m c := by
  rw [ops_cut, after_append, after_append, after_append, after_append]; rfl

/-! ## The first stretch -/

theorem WA_args :
      WA m c (Proc.devRef .tc main_arg0) = m ((c.tc : Thread nD τ).loc main_arg0)
      ∧ WA m c (Proc.devRef .tc main_arg1) = m ((c.tc : Thread nD τ).loc main_arg1)
      ∧ WA m c (Proc.devRef .tc main_arg2) = m ((c.tc : Thread nD τ).loc main_arg2)
      ∧ WA m c (Proc.devRef .tc main_arg3) = m ((c.tc : Thread nD τ).loc main_arg3)
      ∧ WA m c (Proc.devRef .tc main_arg4) = m ((c.tc : Thread nD τ).loc main_arg4)
      ∧ WA m c (Proc.devRef .tc main_arg5) = m ((c.tc : Thread nD τ).loc main_arg5) := by
  unfold WA; dsimp only [opsA]
  refine ⟨?_, ?_, ?_, ?_, ?_, ?_⟩ <;> (after_results_simp <;> rfl)

/-- The source-node index of every edge. -/
theorem WA_row : WA m c (Proc.devRef .tc main_v1) = val_main_v1 (F := F) (m ((c.tc : Thread nD τ).loc main_arg1)) := by
  unfold WA; dsimp only [opsA]; after_results_simp <;> rfl

/-- The target-node index of every edge. -/
theorem WA_col : WA m c (Proc.devRef .tc main_v3) = val_main_v3 (F := F) (m ((c.tc : Thread nD τ).loc main_arg1)) := by
  unfold WA; dsimp only [opsA]; after_results_simp <;> rfl

/-- The weight of every edge. -/
theorem WA_weight : WA m c (Proc.devRef .tc main_v29) = val_main_v29 (F := F) (m ((c.tc : Thread nD τ).loc main_arg1)) := by
  unfold WA; dsimp only [opsA]; after_results_simp <;> rfl

/-! ## The second stretch -/

theorem WB_args :
      WB m c (Proc.devRef .tc main_arg0) = m ((c.tc : Thread nD τ).loc main_arg0)
      ∧ WB m c (Proc.devRef .tc main_arg1) = m ((c.tc : Thread nD τ).loc main_arg1)
      ∧ WB m c (Proc.devRef .tc main_arg2) = m ((c.tc : Thread nD τ).loc main_arg2)
      ∧ WB m c (Proc.devRef .tc main_arg3) = m ((c.tc : Thread nD τ).loc main_arg3)
      ∧ WB m c (Proc.devRef .tc main_arg4) = m ((c.tc : Thread nD τ).loc main_arg4)
      ∧ WB m c (Proc.devRef .tc main_arg5) = m ((c.tc : Thread nD τ).loc main_arg5) := by
  unfold WB; dsimp only [opsB]
  refine ⟨?_, ?_, ?_, ?_, ?_, ?_⟩ <;> after_results_simp
  · exact (WA_args m c).1
  · exact (WA_args m c).2.1
  · exact (WA_args m c).2.2.1
  · exact (WA_args m c).2.2.2.1
  · exact (WA_args m c).2.2.2.2.1
  · exact (WA_args m c).2.2.2.2.2

theorem WB_row : WB m c (Proc.devRef .tc main_v1) = val_main_v1 (F := F) (m ((c.tc : Thread nD τ).loc main_arg1)) := by
  unfold WB; dsimp only [opsB]; after_results_simp; exact WA_row m c

theorem WB_col : WB m c (Proc.devRef .tc main_v3) = val_main_v3 (F := F) (m ((c.tc : Thread nD τ).loc main_arg1)) := by
  unfold WB; dsimp only [opsB]; after_results_simp; exact WA_col m c

theorem WB_weight : WB m c (Proc.devRef .tc main_v29) = val_main_v29 (F := F) (m ((c.tc : Thread nD τ).loc main_arg1)) := by
  unfold WB; dsimp only [opsB]; after_results_simp; exact WA_weight m c

/-- The hidden layer. -/
theorem WB_hidden : WB m c (Proc.devRef .tc main_v56) = val_main_v56 (F := F) (m ((c.tc : Thread nD τ).loc main_arg0)) (m ((c.tc : Thread nD τ).loc main_arg1)) (m ((c.tc : Thread nD τ).loc main_arg2)) (m ((c.tc : Thread nD τ).loc main_arg3)) := by
  unfold WB; dsimp only [opsB]; after_results_simp
  rw [WA_row, WA_col, WA_weight, (WA_args m c).1, (WA_args m c).2.2.1, (WA_args m c).2.2.2.1]
  rfl

/-! ## The third stretch -/

theorem WC_args :
      WC m c (Proc.devRef .tc main_arg0) = m ((c.tc : Thread nD τ).loc main_arg0)
      ∧ WC m c (Proc.devRef .tc main_arg1) = m ((c.tc : Thread nD τ).loc main_arg1)
      ∧ WC m c (Proc.devRef .tc main_arg2) = m ((c.tc : Thread nD τ).loc main_arg2)
      ∧ WC m c (Proc.devRef .tc main_arg3) = m ((c.tc : Thread nD τ).loc main_arg3)
      ∧ WC m c (Proc.devRef .tc main_arg4) = m ((c.tc : Thread nD τ).loc main_arg4)
      ∧ WC m c (Proc.devRef .tc main_arg5) = m ((c.tc : Thread nD τ).loc main_arg5) := by
  unfold WC; dsimp only [opsC]
  refine ⟨?_, ?_, ?_, ?_, ?_, ?_⟩ <;> after_results_simp
  · exact (WB_args m c).1
  · exact (WB_args m c).2.1
  · exact (WB_args m c).2.2.1
  · exact (WB_args m c).2.2.2.1
  · exact (WB_args m c).2.2.2.2.1
  · exact (WB_args m c).2.2.2.2.2

theorem WC_hidden : WC m c (Proc.devRef .tc main_v56) = val_main_v56 (F := F) (m ((c.tc : Thread nD τ).loc main_arg0)) (m ((c.tc : Thread nD τ).loc main_arg1)) (m ((c.tc : Thread nD τ).loc main_arg2)) (m ((c.tc : Thread nD τ).loc main_arg3)) := by
  unfold WC; dsimp only [opsC]; after_results_simp; exact WB_hidden m c

/-- The hidden layer's propagated copy. -/
theorem WC_propagated : WC m c (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) := by
  unfold WC; dsimp only [opsC]; after_results_simp
  rw [WB_row, WB_col, WB_weight, WB_hidden]
  rfl

/-! ## The fourth stretch -/

theorem WD_args :
      WD m c (Proc.devRef .tc main_arg0) = m ((c.tc : Thread nD τ).loc main_arg0)
      ∧ WD m c (Proc.devRef .tc main_arg1) = m ((c.tc : Thread nD τ).loc main_arg1)
      ∧ WD m c (Proc.devRef .tc main_arg2) = m ((c.tc : Thread nD τ).loc main_arg2)
      ∧ WD m c (Proc.devRef .tc main_arg3) = m ((c.tc : Thread nD τ).loc main_arg3)
      ∧ WD m c (Proc.devRef .tc main_arg4) = m ((c.tc : Thread nD τ).loc main_arg4)
      ∧ WD m c (Proc.devRef .tc main_arg5) = m ((c.tc : Thread nD τ).loc main_arg5) := by
  unfold WD; dsimp only [opsD]
  refine ⟨?_, ?_, ?_, ?_, ?_, ?_⟩ <;> after_results_simp
  · exact (WC_args m c).1
  · exact (WC_args m c).2.1
  · exact (WC_args m c).2.2.1
  · exact (WC_args m c).2.2.2.1
  · exact (WC_args m c).2.2.2.2.1
  · exact (WC_args m c).2.2.2.2.2

/-- The output layer before its log-softmax. -/
theorem WD_affine : WD m c (Proc.devRef .tc main_v82)
    = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold WD; dsimp only [opsD]; after_results_simp
  rw [WC_hidden, WC_propagated, (WC_args m c).2.2.2.2.1, (WC_args m c).2.2.2.2.2]
  rfl

/-! ## The last stretch -/

theorem WE_args :
      WE m c (Proc.devRef .tc main_arg0) = m ((c.tc : Thread nD τ).loc main_arg0)
      ∧ WE m c (Proc.devRef .tc main_arg1) = m ((c.tc : Thread nD τ).loc main_arg1)
      ∧ WE m c (Proc.devRef .tc main_arg2) = m ((c.tc : Thread nD τ).loc main_arg2)
      ∧ WE m c (Proc.devRef .tc main_arg3) = m ((c.tc : Thread nD τ).loc main_arg3)
      ∧ WE m c (Proc.devRef .tc main_arg4) = m ((c.tc : Thread nD τ).loc main_arg4)
      ∧ WE m c (Proc.devRef .tc main_arg5) = m ((c.tc : Thread nD τ).loc main_arg5) := by
  unfold WE; dsimp only [opsE]
  refine ⟨?_, ?_, ?_, ?_, ?_, ?_⟩ <;> after_results_simp
  · exact (WD_args m c).1
  · exact (WD_args m c).2.1
  · exact (WD_args m c).2.2.1
  · exact (WD_args m c).2.2.2.1
  · exact (WD_args m c).2.2.2.2.1
  · exact (WD_args m c).2.2.2.2.2

/-- The row-wise log-softmax of an array, operation by operation as the reference spells it: the row maximum (guarded
    by the float minus infinity), the shifted entries, their exponentials' row sum, its logarithm subtracted. -/
def lsm (Z : (⟨S100000x40, .f32⟩ : BufTy).Contents (Elt F)) : (⟨S100000x40, .f32⟩ : BufTy).Contents (Elt F) :=
  subf (subf Z (broadcastInDim S100000x40 ![0, 1] bcast_S100000x1_S100000x40_0_1 (broadcastInDim S100000x1 ![0] bcast_S100000_S100000x1_0
      (maximumf (broadcastInDim S100000 ![] bcast_S_S100000 (constant S_ .f32 0xFF800000#32))
        (Host.reduce FloatOps.maximumf Z (constant S_ .f32 0xFF800000#32) reducesTo_S100000x40_S100000_d1 h_S_)))))
    (broadcastInDim S100000x40 ![0, 1] bcast_S100000x1_S100000x40_0_1 (Host.log (broadcastInDim S100000x1 ![0] bcast_S100000_S100000x1_0
      (Host.reduceAdd (Host.exp (subf Z (broadcastInDim S100000x40 ![0, 1] bcast_S100000x1_S100000x40_0_1 (broadcastInDim S100000x1 ![0] bcast_S100000_S100000x1_0
      (maximumf (broadcastInDim S100000 ![] bcast_S_S100000 (constant S_ .f32 0xFF800000#32))
        (Host.reduce FloatOps.maximumf Z (constant S_ .f32 0xFF800000#32) reducesTo_S100000x40_S100000_d1 h_S_))))))
        (constant S_ .f32 0x00000000#32) reducesTo_S100000x40_S100000_d1 h_S_))))

set_option maxHeartbeats 1000000 in
/-- The last stretch computes that function of what the stretch before left in the output layer's buffer. -/
theorem lsm_stretch (V : Valuation τ sig (Elt F)) :
    after opsE V (Proc.devRef .tc main_v83) = lsm (F := F) (V (Proc.devRef .tc main_v82)) := by
  dsimp only [opsE]
  after_results_simp
  simp only [TRef.ofBuf_toBuf]
  rfl

/-- The reference's last stage is that function of the stage before it. -/
theorem val_result_eq (x0 : (⟨S100000x128, .f32⟩ : BufTy).Contents (Elt F)) (x1 : (⟨S2x600000, .i32⟩ : BufTy).Contents (Elt F))
    (x2 : (⟨S3x2x128x32, .f32⟩ : BufTy).Contents (Elt F)) (x3 : (⟨S3x32, .f32⟩ : BufTy).Contents (Elt F))
    (x4 : (⟨S3x2x32x40, .f32⟩ : BufTy).Contents (Elt F)) (x5 : (⟨S3x40, .f32⟩ : BufTy).Contents (Elt F)) :
    val_main_v83 (F := F) x0 x1 x2 x3 x4 x5 = lsm (F := F) (val_main_v82 (F := F) x0 x1 x2 x3 x4 x5) := by
  generalize hZ : val_main_v82 (F := F) x0 x1 x2 x3 x4 x5 = Z
  simp only [val_main_v83, val_main_call2_v10, val_main_call2_v9, val_main_call2_v8, val_main_call2_v7, val_main_call2_v6,
    val_main_call2_v5, val_main_call2_v4, val_main_call2_v3, val_main_call2_v2, val_main_call2_v1, val_main_call2_v0,
    val_main_call2_cst, val_main_call2_cst_0, val_main_call2_cst_1, hZ]
  rfl

/-- The result. -/
theorem WE_result : WE m c (Proc.devRef .tc main_v83)
    = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold WE
  rw [lsm_stretch, val_result_eq]
  exact congrArg lsm (WD_affine m c)

/-! ## The run -/

/-- On every device, from any memory with zero counters: every weakly fair execution of the reference terminates with
    the result buffer at the last stage's value of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v83)
          = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v83).trans ((congrFun (after_ops m c) _).trans (WE_result m c)),
       (h c main_arg0).trans ((congrFun (after_ops m c) _).trans (WE_args m c).1),
       (h c main_arg1).trans ((congrFun (after_ops m c) _).trans (WE_args m c).2.1),
       (h c main_arg2).trans ((congrFun (after_ops m c) _).trans (WE_args m c).2.2.1),
       (h c main_arg3).trans ((congrFun (after_ops m c) _).trans (WE_args m c).2.2.2.1),
       (h c main_arg4).trans ((congrFun (after_ops m c) _).trans (WE_args m c).2.2.2.2.1),
       (h c main_arg5).trans ((congrFun (after_ops m c) _).trans (WE_args m c).2.2.2.2.2)⟩)
    (run_seq scopedRefs_eq scopedSems_eq defs main (fun _ => ops) main_eq (fun _ => ops_sub) m ρ)

end Cert.ReferenceIdeal.Stages

end
-- ==== Proof.Spec.lean ====
/-
  The mathematics both programs compute, as functions of whole arrays on the extended reals.

  One Chebyshev layer of order two sends node features `X` (one row per node) and their
  propagated copy `T` (the normalised adjacency applied to `X`) to `X·A + T·B + b`: entry (n, o)
  is the sum over the feature axis of `X(n,k)·A(k,o)`, plus the same sum for `T` and `B`, plus
  the bias `b(0,o)`.  The first layer clamps that at zero from below; the second takes a row-wise
  log-softmax of it: with `m` the row's maximum, `z - m - log (Σ exp (z - m))`.
-/
import Idealize.ShloMosaic.PureOps.Ideal
import Idealize.ShloMosaic.Lib.ValueIdx

noncomputable section

namespace Cert.Cheb

open Idealize.ShloMosaic Idealize.ShloMosaic.ValueIdx

/-- Entry (n, o) of `X·A + T·B + b`: two sums over the shared feature axis, then the bias row. -/
def affine {N K M : ℕ} (X T : (⟨2, ![N, K]⟩ : Shape).Idx → EReal) (A B : (⟨2, ![K, M]⟩ : Shape).Idx → EReal)
    (b : (⟨2, ![1, M]⟩ : Shape).Idx → EReal) (n : Fin N) (o : Fin M) : EReal :=
  ((∑ k : Fin K, X (ix2 n k) * A (ix2 k o)) + ∑ k : Fin K, T (ix2 n k) * B (ix2 k o)) + b (ix2 0 o)

/-- The hidden layer: the affine map clamped below at the float zero. -/
def hidden (X T : (⟨2, ![100000, 128]⟩ : Shape).Idx → EReal) (A B : (⟨2, ![128, 32]⟩ : Shape).Idx → EReal)
    (b : (⟨2, ![1, 32]⟩ : Shape).Idx → EReal) : (⟨2, ![100000, 32]⟩ : Shape).Idx → EReal :=
  fun j => max (affine X T A B b (j 0) (j 1)) (Ideal.ofBits .f32 0x00000000#32)

theorem hidden_apply (X T : (⟨2, ![100000, 128]⟩ : Shape).Idx → EReal) (A B : (⟨2, ![128, 32]⟩ : Shape).Idx → EReal)
    (b : (⟨2, ![1, 32]⟩ : Shape).Idx → EReal) (n : Fin 100000) (o : Fin 32) :
    hidden X T A B b (ix2 n o) = max (affine X T A B b n o) (Ideal.ofBits .f32 0x00000000#32) := rfl

/-- The largest of a row's forty entries, folded from the float minus infinity. -/
def rowMax (z : Fin 40 → EReal) : EReal :=
  (Finset.univ : Finset (Fin 40)).fold max (Ideal.ofBits .f32 0xFF800000#32) z

/-- Log-softmax of one row at position `o`: shift by the row maximum, subtract the log of the summed exponentials. -/
def logSoftmaxRow (z : Fin 40 → EReal) (o : Fin 40) : EReal :=
  (z o - rowMax z) - Ideal.log (∑ k : Fin 40, Ideal.exp (z k - rowMax z))

/-- The output layer: the affine map followed by the row-wise log-softmax. -/
def logits (H T : (⟨2, ![100000, 32]⟩ : Shape).Idx → EReal) (A B : (⟨2, ![32, 40]⟩ : Shape).Idx → EReal)
    (b : (⟨2, ![1, 40]⟩ : Shape).Idx → EReal) : (⟨2, ![100000, 40]⟩ : Shape).Idx → EReal :=
  fun j => logSoftmaxRow (fun k => affine H T A B b (j 0) k) (j 1)

theorem logits_apply (H T : (⟨2, ![100000, 32]⟩ : Shape).Idx → EReal) (A B : (⟨2, ![32, 40]⟩ : Shape).Idx → EReal)
    (b : (⟨2, ![1, 40]⟩ : Shape).Idx → EReal) (n : Fin 100000) (o : Fin 40) :
    logits H T A B b (ix2 n o) = logSoftmaxRow (fun k => affine H T A B b n k) o := rfl

/-- The fold of `max` from a start value is at least the start value, so taking the maximum with the start value again changes nothing. -/
theorem max_start_fold (s : EReal) (z : Fin 40 → EReal) :
    max s ((Finset.univ : Finset (Fin 40)).fold max s z) = (Finset.univ : Finset (Fin 40)).fold max s z :=
  max_eq_right ((Finset.le_fold_max s).mpr (Or.inl le_rfl))

end Cert.Cheb

end
-- ==== Proof.KernelHostA.lean ====
/-
  The idealized kernel's host side, first part: each node's normalising factor.

  The degree of a node is the number of edges that leave it (a scatter-add of ones at the source index); the
  factor is the inverse square root of the degree clamped at one where the degree is positive and zero elsewhere.
  The program computes it by the same operations as the reference, the last three through an outlined function.
-/
import proofs.«117465_j4320737100470_1_alg».proof.Proof.Gen.KernelIdeal.Frame
import proofs.«117465_j4320737100470_1_alg».proof.Proof.RefRead
import proofs.«117465_j4320737100470_1_alg».proof.Proof.LibTypedRef
import Idealize.ShloMosaic.Lib.StableHlo.Run
import Idealize.ShloMosaic.Lib.Pipeline.Value
import Idealize.ShloMosaic.PureOps.Ideal

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.ReadP

variable (m : (ℓ : Loc nD τ sig) → Buf (Elt Ideal) ℓ) (ρ : Dev nD → PrngReg) (c : Dev nD)

/-- Which nodes have positive degree. -/
theorem w1_pos : W1 m ρ c (Proc.devRef .tc main_v9) = val_main_v9 (F := Ideal) (m ((c.tc : Thread nD τ).loc main_arg1)) := by
  dsimp only [W1, W0, hostOps0]; after_results_simp <;> rfl

/-- The inverse square root of each node's degree clamped at one. -/
theorem w1_inv : W1 m ρ c (Proc.devRef .tc main_v12) = val_main_v12 (F := Ideal) (m ((c.tc : Thread nD τ).loc main_arg1)) := by
  dsimp only [W1, W0, hostOps0]; after_results_simp <;> rfl

theorem w1_zero : W1 m ρ c (Proc.devRef .tc main_cst_3) = val_main_cst_3 (F := Ideal) := by
  dsimp only [W1, W0, hostOps0]; after_results_simp <;> rfl

set_option maxHeartbeats 1000000 in
/-- The three operations that choose, node by node, the inverse square root where the degree is positive and zero
    elsewhere, from any contents of the buffers they read. -/
theorem where_stretch (V : Valuation τ sig (Elt Ideal)) :
    after hostOps0_1 V (Proc.devRef .tc main_v13)
      = select (V (Proc.devRef .tc main_v9)) (V (Proc.devRef .tc main_v12))
          (broadcastInDim S100000 ![] bcast_S_S100000 (id (V (Proc.devRef .tc main_cst_3)))) := by
  dsimp only [hostOps0_1]
  after_results_simp
  simp only [TRef.ofBuf_toBuf]
  rfl

/-- So from any contents that hold the reference's comparison, inverse square roots and zero, they leave the reference's factors. -/
theorem dis_stretch (V : Valuation τ sig (Elt Ideal))
    (hp : V (Proc.devRef .tc main_v9) = val_main_v9 (F := Ideal) (m ((c.tc : Thread nD τ).loc main_arg1)))
    (hi : V (Proc.devRef .tc main_v12) = val_main_v12 (F := Ideal) (m ((c.tc : Thread nD τ).loc main_arg1)))
    (hz : V (Proc.devRef .tc main_cst_3) = val_main_cst_3 (F := Ideal)) :
    after hostOps0_1 V (Proc.devRef .tc main_v13) = val_main_v13 (F := Ideal) (m ((c.tc : Thread nD τ).loc main_arg1)) := by
  refine (where_stretch V).trans ?_
  simp only [hp, hi, hz]
  rfl

/-- Each node's normalising factor: the reference's. -/
theorem w2_dis : W2 m ρ c (Proc.devRef .tc main_v13) = val_main_v13 (F := Ideal) (m ((c.tc : Thread nD τ).loc main_arg1)) :=
  dis_stretch m c (W1 m ρ c) (w1_pos m ρ c) (w1_inv m ρ c) (w1_zero m ρ c)

/-- The source-node and the target-node index of every edge, and the features, after these operations. -/
theorem w2_row : W2 m ρ c (Proc.devRef .tc main_v1) = val_main_v1 (F := Ideal) (m ((c.tc : Thread nD τ).loc main_arg1)) := by
  dsimp only [W2, W1, W0, hostOps0_1, hostOps0]; after_results_simp <;> (try simp only [TRef.ofBuf_toBuf]) <;> rfl
theorem w2_col : W2 m ρ c (Proc.devRef .tc main_v3) = val_main_v3 (F := Ideal) (m ((c.tc : Thread nD τ).loc main_arg1)) := by
  dsimp only [W2, W1, W0, hostOps0_1, hostOps0]; after_results_simp <;> (try simp only [TRef.ofBuf_toBuf]) <;> rfl
theorem w2_x : W2 m ρ c (Proc.devRef .tc main_arg0) = m ((c.tc : Thread nD τ).loc main_arg0) := by
  dsimp only [W2, W1, W0, hostOps0_1, hostOps0]; after_results_simp <;> (try simp only [TRef.ofBuf_toBuf]) <;> rfl

end Cert.KernelIdeal.Host

end
-- ==== Proof.KernelHostB.lean ====
/-
  The idealized kernel's host side, second part: the stretches of host operations before each grid, from any
  buffer contents that hold what they read.

  Given the normalising factors and the two index rows, the long stretch before the first grid computes the edge
  weights `-d(row)·d(col)` and the propagated features (gather at the source node, scale by the edge weight,
  scatter-add at the target node) as the reference does, and rounds; given the edge weights, the index rows and the
  hidden layer, the stretch between the grids propagates the hidden layer in the same way. On the extended reals
  rounding is the identity.
-/
import proofs.«117465_j4320737100470_1_alg».proof.Proof.Gen.KernelIdeal.Frame
import proofs.«117465_j4320737100470_1_alg».proof.Proof.RefRead
import proofs.«117465_j4320737100470_1_alg».proof.Proof.LibTypedRef
import Idealize.ShloMosaic.Lib.StableHlo.Run
import Idealize.ShloMosaic.Lib.Pipeline.Value
import Idealize.ShloMosaic.PureOps.Ideal

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.ReadP

variable (m : (ℓ : Loc nD τ sig) → Buf (Elt Ideal) ℓ) (ρ : Dev nD → PrngReg) (c : Dev nD)

/-- On the extended reals rounding to a narrower format is the identity. -/
theorem truncf_self {s : Shape} {φ ψ : FTy} (X : FVec Ideal s φ) (h : ψ.bits < φ.bits) :
    (truncf ψ X h : FVec Ideal s ψ) = (X : s.Idx → EReal) := rfl

/-- The weight of every edge, from any contents that hold the factors and the two index rows. -/
theorem weight_stretch (V : Valuation τ sig (Elt Ideal))
    (hd : V (Proc.devRef .tc main_v13) = val_main_v13 (F := Ideal) (m ((c.tc : Thread nD τ).loc main_arg1)))
    (hr : V (Proc.devRef .tc main_v1) = val_main_v1 (F := Ideal) (m ((c.tc : Thread nD τ).loc main_arg1)))
    (hc : V (Proc.devRef .tc main_v3) = val_main_v3 (F := Ideal) (m ((c.tc : Thread nD τ).loc main_arg1))) :
    after hostOps0_2 V (Proc.devRef .tc main_v29) = val_main_v29 (F := Ideal) (m ((c.tc : Thread nD τ).loc main_arg1)) := by
  dsimp only [hostOps0_2]
  after_results_simp
  simp only [hd, hr, hc]
  rfl

/-- The propagated features, rounded, from any contents that hold the factors, the index rows and the features. -/
theorem propagated_stretch (V : Valuation τ sig (Elt Ideal))
    (hd : V (Proc.devRef .tc main_v13) = val_main_v13 (F := Ideal) (m ((c.tc : Thread nD τ).loc main_arg1)))
    (hr : V (Proc.devRef .tc main_v1) = val_main_v1 (F := Ideal) (m ((c.tc : Thread nD τ).loc main_arg1)))
    (hc : V (Proc.devRef .tc main_v3) = val_main_v3 (F := Ideal) (m ((c.tc : Thread nD τ).loc main_arg1)))
    (hx : V (Proc.devRef .tc main_arg0) = m ((c.tc : Thread nD τ).loc main_arg0)) :
    after hostOps0_2 V (Proc.devRef .tc main_v58)
      = (val_main_v42 (F := Ideal) (m ((c.tc : Thread nD τ).loc main_arg0)) (m ((c.tc : Thread nD τ).loc main_arg1)) : (⟨S100000x128, .bf16⟩ : BufTy).Contents (Elt Ideal)) := by
  dsimp only [hostOps0_2]
  after_results_simp
  refine Eq.trans (truncf_self (s := S100000x128) (φ := .f32) (ψ := .bf16) _ bitsLt_bf16_f32) ?_
  simp only [hd, hr, hc, hx]
  rfl

/-- The hidden layer's propagated copy, rounded, from any contents that hold the edge weights, the index rows and the
    hidden layer. -/
theorem propagated_hidden_stretch (V : Valuation τ sig (Elt Ideal))
    (hw : V (Proc.devRef .tc main_v29) = val_main_v29 (F := Ideal) (m ((c.tc : Thread nD τ).loc main_arg1)))
    (hr : V (Proc.devRef .tc main_v1) = val_main_v1 (F := Ideal) (m ((c.tc : Thread nD τ).loc main_arg1)))
    (hc : V (Proc.devRef .tc main_v3) = val_main_v3 (F := Ideal) (m ((c.tc : Thread nD τ).loc main_arg1)))
    (hH : V (Proc.devRef .tc main_v62) = (val_main_v56 (F := Ideal) (m ((c.tc : Thread nD τ).loc main_arg0)) (m ((c.tc : Thread nD τ).loc main_arg1)) (m ((c.tc : Thread nD τ).loc main_arg2)) (m ((c.tc : Thread nD τ).loc main_arg3)))) :
    after hostOps1 V (Proc.devRef .tc main_v77)
      = (val_main_v69 (F := Ideal) (m ((c.tc : Thread nD τ).loc main_arg0)) (m ((c.tc : Thread nD τ).loc main_arg1)) (m ((c.tc : Thread nD τ).loc main_arg2)) (m ((c.tc : Thread nD τ).loc main_arg3)) : (⟨S100000x32, .bf16⟩ : BufTy).Contents (Elt Ideal)) := by
  dsimp only [hostOps1]
  after_results_simp
  refine Eq.trans (truncf_self (s := S100000x32) (φ := .f32) (ψ := .bf16) _ bitsLt_bf16_f32) ?_
  simp only [hw, hr, hc, hH]
  rfl

/-- The hidden layer, rounded: itself. -/
theorem hidden_stretch (V : Valuation τ sig (Elt Ideal)) (H : (⟨S100000x32, .f32⟩ : BufTy).Contents (Elt Ideal))
    (hH : V (Proc.devRef .tc main_v62) = H) :
    after hostOps1 V (Proc.devRef .tc main_v76) = (H : (⟨S100000x32, .bf16⟩ : BufTy).Contents (Elt Ideal)) := by
  dsimp only [hostOps1]
  after_results_simp
  simp only [hH]
  rfl

/-- A weight matrix of the second layer, rounded: itself. -/
theorem weightA_stretch (V : Valuation τ sig (Elt Ideal)) (A : (⟨S32x40, .f32⟩ : BufTy).Contents (Elt Ideal))
    (hA : V (Proc.devRef .tc main_v39) = A) :
    after hostOps1 V (Proc.devRef .tc main_v78) = (A : (⟨S32x40, .bf16⟩ : BufTy).Contents (Elt Ideal)) := by
  dsimp only [hostOps1]
  after_results_simp
  simp only [hA]
  rfl
theorem weightB_stretch (V : Valuation τ sig (Elt Ideal)) (B : (⟨S32x40, .f32⟩ : BufTy).Contents (Elt Ideal))
    (hB : V (Proc.devRef .tc main_v42) = B) :
    after hostOps1 V (Proc.devRef .tc main_v79) = (B : (⟨S32x40, .bf16⟩ : BufTy).Contents (Elt Ideal)) := by
  dsimp only [hostOps1]
  after_results_simp
  simp only [hB]
  rfl

/-- The second layer's summed bias, cast to a row. -/
theorem bias_stretch (V : Valuation τ sig (Elt Ideal)) (b : (⟨S40, .f32⟩ : BufTy).Contents (Elt Ideal))
    (hb : V (Proc.devRef .tc main_v43) = b) :
    after hostOps1 V (Proc.devRef .tc main_v80) = shapeCast S1x40 b shapeCasts_S40_S1x40 := by
  dsimp only [hostOps1]
  after_results_simp
  simp only [hb]
  rfl

end Cert.KernelIdeal.Host

end
-- ==== Proof.KernelHost.lean ====
/-
  The idealized kernel's host side, read against the reference's stages.

  Before the first grid the program computes, on the host, exactly what the reference computes: the two index
  rows of the edge list, the edge weights `-d(row)·d(col)` (`d` the inverse square root of the clamped degree, zero
  at isolated nodes), the propagated features (gather at the source node, scale by the edge weight, scatter-add at
  the target node), and the sums over the three branches of the weights and of the biases. It then rounds the grid's
  inputs to a narrower float format and casts each bias to a row; on the extended reals the rounding is the identity.
  Between the two grids it propagates the hidden layer in the same way. So every array a grid reads is one of the
  reference's stages, as a function of the six arguments.
-/
import proofs.«117465_j4320737100470_1_alg».proof.Proof.Gen.KernelIdeal.Frame
import proofs.«117465_j4320737100470_1_alg».proof.Proof.RefRead
import proofs.«117465_j4320737100470_1_alg».proof.Proof.LibTypedRef
import proofs.«117465_j4320737100470_1_alg».proof.Proof.KernelHostA
import proofs.«117465_j4320737100470_1_alg».proof.Proof.KernelHostB
import Idealize.ShloMosaic.Lib.StableHlo.Run
import Idealize.ShloMosaic.Lib.Pipeline.Value
import Idealize.ShloMosaic.PureOps.Ideal

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.ReadP

variable (m : (ℓ : Loc nD τ sig) → Buf (Elt Ideal) ℓ) (ρ : Dev nD → PrngReg) (c : Dev nD)

/-! ## Before the first grid -/

/-- The source-node and the target-node index of every edge. -/
theorem w3_row : W3 m ρ c (Proc.devRef .tc main_v1) = val_main_v1 (F := Ideal) (m ((c.tc : Thread nD τ).loc main_arg1)) := by
  dsimp only [W3, W2, W1, W0, hostOps0_2, hostOps0_1, hostOps0]; after_results_simp <;> (try simp only [TRef.ofBuf_toBuf]) <;> rfl
theorem w3_col : W3 m ρ c (Proc.devRef .tc main_v3) = val_main_v3 (F := Ideal) (m ((c.tc : Thread nD τ).loc main_arg1)) := by
  dsimp only [W3, W2, W1, W0, hostOps0_2, hostOps0_1, hostOps0]; after_results_simp <;> (try simp only [TRef.ofBuf_toBuf]) <;> rfl

/-- The weight of every edge. -/
theorem w3_weight : W3 m ρ c (Proc.devRef .tc main_v29) = val_main_v29 (F := Ideal) (m ((c.tc : Thread nD τ).loc main_arg1)) :=
  weight_stretch m c (W2 m ρ c) (w2_dis m ρ c) (w2_row m ρ c) (w2_col m ρ c)

/-- The second layer's two summed weight matrices and its summed bias. -/
theorem w3_a2 : W3 m ρ c (Proc.devRef .tc main_v39) = val_main_v72 (F := Ideal) (m ((c.tc : Thread nD τ).loc main_arg4)) := by
  dsimp only [W3, W2, W1, W0, hostOps0_2, hostOps0_1, hostOps0]; after_results_simp <;> (try simp only [TRef.ofBuf_toBuf]) <;> rfl
theorem w3_b2 : W3 m ρ c (Proc.devRef .tc main_v42) = val_main_v76 (F := Ideal) (m ((c.tc : Thread nD τ).loc main_arg4)) := by
  dsimp only [W3, W2, W1, W0, hostOps0_2, hostOps0_1, hostOps0]; after_results_simp <;> (try simp only [TRef.ofBuf_toBuf]) <;> rfl
theorem w3_bias2 : W3 m ρ c (Proc.devRef .tc main_v43) = val_main_v79 (F := Ideal) (m ((c.tc : Thread nD τ).loc main_arg5)) := by
  dsimp only [W3, W2, W1, W0, hostOps0_2, hostOps0_1, hostOps0]; after_results_simp <;> (try simp only [TRef.ofBuf_toBuf]) <;> rfl

/-! ## What the first grid reads -/

/-- The features, rounded: themselves. -/
theorem v3_x : V3 m ρ c main_v57 = (m ((c.tc : Thread nD τ).loc main_arg0) : (⟨S100000x128, .bf16⟩ : BufTy).Contents (Elt Ideal)) := by
  dsimp only [V3, W3, W2, W1, W0, hostOps0_2, hostOps0_1, hostOps0]; after_results_simp <;> (try simp only [TRef.ofBuf_toBuf]) <;> rfl

/-- The propagated features, rounded. -/
theorem v3_t : V3 m ρ c main_v58 = (val_main_v42 (F := Ideal) (m ((c.tc : Thread nD τ).loc main_arg0)) (m ((c.tc : Thread nD τ).loc main_arg1)) : (⟨S100000x128, .bf16⟩ : BufTy).Contents (Elt Ideal)) :=
  propagated_stretch m c (W2 m ρ c) (w2_dis m ρ c) (w2_row m ρ c) (w2_col m ρ c) (w2_x m ρ c)

/-- The first layer's two summed weight matrices, rounded. -/
theorem v3_a : V3 m ρ c main_v59 = (val_main_v45 (F := Ideal) (m ((c.tc : Thread nD τ).loc main_arg2)) : (⟨S128x32, .bf16⟩ : BufTy).Contents (Elt Ideal)) := by
  dsimp only [V3, W3, W2, W1, W0, hostOps0_2, hostOps0_1, hostOps0]; after_results_simp <;> (try simp only [TRef.ofBuf_toBuf]) <;> rfl
theorem v3_b : V3 m ρ c main_v60 = (val_main_v49 (F := Ideal) (m ((c.tc : Thread nD τ).loc main_arg2)) : (⟨S128x32, .bf16⟩ : BufTy).Contents (Elt Ideal)) := by
  dsimp only [V3, W3, W2, W1, W0, hostOps0_2, hostOps0_1, hostOps0]; after_results_simp <;> (try simp only [TRef.ofBuf_toBuf]) <;> rfl

/-- The first layer's summed bias, cast to a row. -/
theorem v3_bias_cast : V3 m ρ c main_v61 = shapeCast S1x32 (val_main_v52 (F := Ideal) (m ((c.tc : Thread nD τ).loc main_arg3))) shapeCasts_S32_S1x32 := by
  dsimp only [V3, W3, W2, W1, W0, hostOps0_2, hostOps0_1, hostOps0]; after_results_simp <;> (try simp only [TRef.ofBuf_toBuf]) <;> rfl

/-! ## Between the grids -/

/-- The first grid leaves the index rows, the edge weights and the second layer's weights as they were. -/
theorem w4_row : W4 m ρ c (Proc.devRef .tc main_v1) = val_main_v1 (F := Ideal) (m ((c.tc : Thread nD τ).loc main_arg1)) :=
  (W4_of_ne m ρ c main_v1 (by decide)).trans (w3_row m ρ c)
theorem w4_col : W4 m ρ c (Proc.devRef .tc main_v3) = val_main_v3 (F := Ideal) (m ((c.tc : Thread nD τ).loc main_arg1)) :=
  (W4_of_ne m ρ c main_v3 (by decide)).trans (w3_col m ρ c)
theorem w4_weight : W4 m ρ c (Proc.devRef .tc main_v29) = val_main_v29 (F := Ideal) (m ((c.tc : Thread nD τ).loc main_arg1)) :=
  (W4_of_ne m ρ c main_v29 (by decide)).trans (w3_weight m ρ c)
theorem w4_a2 : W4 m ρ c (Proc.devRef .tc main_v39) = val_main_v72 (F := Ideal) (m ((c.tc : Thread nD τ).loc main_arg4)) :=
  (W4_of_ne m ρ c main_v39 (by decide)).trans (w3_a2 m ρ c)
theorem w4_b2 : W4 m ρ c (Proc.devRef .tc main_v42) = val_main_v76 (F := Ideal) (m ((c.tc : Thread nD τ).loc main_arg4)) :=
  (W4_of_ne m ρ c main_v42 (by decide)).trans (w3_b2 m ρ c)
theorem w4_bias2 : W4 m ρ c (Proc.devRef .tc main_v43) = val_main_v79 (F := Ideal) (m ((c.tc : Thread nD τ).loc main_arg5)) :=
  (W4_of_ne m ρ c main_v43 (by decide)).trans (w3_bias2 m ρ c)

/-! ## What the second grid reads, given that the first grid left the reference's hidden layer -/

section Second

variable (hH : W4 m ρ c (Proc.devRef .tc main_v62) = (val_main_v56 (F := Ideal) (m ((c.tc : Thread nD τ).loc main_arg0)) (m ((c.tc : Thread nD τ).loc main_arg1)) (m ((c.tc : Thread nD τ).loc main_arg2)) (m ((c.tc : Thread nD τ).loc main_arg3))))
include hH

/-- The hidden layer, rounded: itself. -/
theorem v5_h : V5 m ρ c main_v76 = ((val_main_v56 (F := Ideal) (m ((c.tc : Thread nD τ).loc main_arg0)) (m ((c.tc : Thread nD τ).loc main_arg1)) (m ((c.tc : Thread nD τ).loc main_arg2)) (m ((c.tc : Thread nD τ).loc main_arg3))) : (⟨S100000x32, .bf16⟩ : BufTy).Contents (Elt Ideal)) :=
  hidden_stretch (W4 m ρ c) _ hH

/-- The hidden layer's propagated copy, rounded. -/
theorem v5_t : V5 m ρ c main_v77 = (val_main_v69 (F := Ideal) (m ((c.tc : Thread nD τ).loc main_arg0)) (m ((c.tc : Thread nD τ).loc main_arg1)) (m ((c.tc : Thread nD τ).loc main_arg2)) (m ((c.tc : Thread nD τ).loc main_arg3)) : (⟨S100000x32, .bf16⟩ : BufTy).Contents (Elt Ideal)) :=
  propagated_hidden_stretch m c (W4 m ρ c) (w4_weight m ρ c) (w4_row m ρ c) (w4_col m ρ c) hH

end Second

/-- The second layer's two summed weight matrices, rounded. -/
theorem v5_a : V5 m ρ c main_v78 = (val_main_v72 (F := Ideal) (m ((c.tc : Thread nD τ).loc main_arg4)) : (⟨S32x40, .bf16⟩ : BufTy).Contents (Elt Ideal)) :=
  weightA_stretch (W4 m ρ c) _ (w4_a2 m ρ c)
theorem v5_b : V5 m ρ c main_v79 = (val_main_v76 (F := Ideal) (m ((c.tc : Thread nD τ).loc main_arg4)) : (⟨S32x40, .bf16⟩ : BufTy).Contents (Elt Ideal)) :=
  weightB_stretch (W4 m ρ c) _ (w4_b2 m ρ c)

/-- The second layer's summed bias, cast to a row. -/
theorem v5_bias_cast : V5 m ρ c main_v80 = shapeCast S1x40 (val_main_v79 (F := Ideal) (m ((c.tc : Thread nD τ).loc main_arg5))) shapeCasts_S40_S1x40 :=
  bias_stretch (W4 m ρ c) _ (w4_bias2 m ρ c)

end Cert.KernelIdeal.Host

end
-- ==== Proof.Layer1Kernel.lean ====
/-
  The first layer of the two-layer Chebyshev network, as the kernel computes it, against the shared specification.

  The node axis (100000 rows) is cut into 25 blocks of 4000 rows; grid point t computes rows 4000·t … 4000·t + 3999. At
  one entry (r, o) of a block the body's arithmetic is: the sum over the 128 feature positions of the products of the
  feature block's row r with column o of the first weight matrix, plus the same sum for the propagated features and the
  second weight matrix, plus entry o of the bias row, the total clamped below at zero. Row r of block t is row
  4000·t + r of the whole feature arrays, and the weight matrices and the bias row are read whole at every point, so
  that value is the specification's entry (4000·t + r, o). Every row n lies in block n / 4000, so the 25 write-backs
  cover the output array, which therefore is the specification's whole-array function of the five inputs.
-/
import proofs.«117465_j4320737100470_1_alg».proof.Proof.Gen.KernelIdeal.Frame
import proofs.«117465_j4320737100470_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Layer1
open Idealize.ShloMosaic Idealize.ShloMosaic.TcCoe Idealize.SL.Sem Cert.KernelIdeal Cert.KernelIdeal.Gen
open Idealize.ShloMosaic.ValueIdx

/-- One entry of a block product: the matrix unit's result into a zero accumulator, read at (r, o), is the sum over
    the 128 shared feature positions of the products of the two operands' entries. -/
theorem matmul_entry (x : FVec Ideal S4000x128 .bf16) (w : FVec Ideal S128x32 .bf16) (r : Fin 4000) (o : Fin 32) :
    matmul dot_S4000x128_S128x32_S4000x32_1_0_0_1_n_n none x w (constant S4000x32 .f32 0x00000000#32) (ix2 r o)
      = ∑ k : Fin 128, x (ix2 r k) * w (ix2 k o) := by
  show FloatOps.matmul dot_S4000x128_S128x32_S4000x32_1_0_0_1_n_n none x w (constant S4000x32 .f32 0x00000000#32) (ix2 r o) = _
  rw [Ideal.matmul_constant_zero_apply,
    ← Equiv.sum_comp (contrEquiv1 dot_S4000x128_S128x32_S4000x32_1_0_0_1_n_n 128 rfl rfl).symm]
  refine Finset.sum_congr rfl fun k _ => ?_
  have ck := contrEquiv1_symm_val dot_S4000x128_S128x32_S4000x32_1_0_0_1_n_n 128 rfl rfl k
  have hl : dot_S4000x128_S128x32_S4000x32_1_0_0_1_n_n.lhsIdx (ix2 r o)
      ((contrEquiv1 dot_S4000x128_S128x32_S4000x32_1_0_0_1_n_n 128 rfl rfl).symm k) = ix2 r k := by
    funext ax; apply Fin.ext
    match ax with
    | ⟨0, _⟩ => simp [DotDims.lhsIdx, dot_S4000x128_S128x32_S4000x32_1_0_0_1_n_n]; rfl
    | ⟨1, _⟩ => simp [DotDims.lhsIdx, dot_S4000x128_S128x32_S4000x32_1_0_0_1_n_n]; exact ck
  have hr : dot_S4000x128_S128x32_S4000x32_1_0_0_1_n_n.rhsIdx (ix2 r o)
      ((contrEquiv1 dot_S4000x128_S128x32_S4000x32_1_0_0_1_n_n 128 rfl rfl).symm k) = ix2 k o := by
    funext ax; apply Fin.ext
    match ax with
    | ⟨0, _⟩ => simp [DotDims.rhsIdx, dot_S4000x128_S128x32_S4000x32_1_0_0_1_n_n]; exact ck
    | ⟨1, _⟩ => simp [DotDims.rhsIdx, dot_S4000x128_S128x32_S4000x32_1_0_0_1_n_n]; rfl
  rw [hl, hr]

/-- The body's arithmetic at one entry of a block: the two block products summed, the bias row's entry added, the
    result clamped below at the float zero. -/
theorem payload_entry (x0 x1 : FVec Ideal S4000x128 .bf16) (x2 x3 : FVec Ideal S128x32 .bf16) (x4 : FVec Ideal S1x32 .f32)
    (r : Fin 4000) (o : Fin 32) :
    (Gen.k0_pay1 (F := Ideal) x0 x1 x2 x3 x4 (ix2 r o) : EReal)
      = max (((∑ k : Fin 128, (x0 (ix2 r k) : EReal) * x2 (ix2 k o)) + ∑ k : Fin 128, (x1 (ix2 r k) : EReal) * x3 (ix2 k o)) + x4 (ix2 (0 : Fin 1) o))
          (Ideal.ofBits .f32 0x00000000#32) := by
  unfold Gen.k0_pay1
  simp only [shapeCast_self]
  rw [maximumf_apply, addf_apply, addf_apply, matmul_entry, matmul_entry, broadcastTo_1b_ab_apply, broadcast_apply]
  rfl

theorem offsets_zero : (![0, 0] : Fin 2 → Nat) = fun _ => 0 := funext fun a => by fin_cases a <;> rfl

/-- The printed index maps over the 25 grid points: the two feature windows and the output window sit at row block
    `t`, column block 0; the two weight windows and the bias row are whole at every point. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- The feature window's block at point `t` is rows `4000·t … 4000·t + 3999` of the feature array. -/
theorem blockX (r : Fin 4000) (k : Fin 128) (n : Fin 100000) (hn : n.val = 4000 * t.val + r.val) :
    (Gen.iblk0 (F := Ideal) V c 0 t : Vec Ideal S4000x128 .bf16) (ix2 r k) = (V c main_v57 : S100000x128.Idx → EReal) (ix2 n k) := by
  obtain ⟨e0, e1, -⟩ := index_maps t
  unfold Gen.iblk0
  rw [View.read_apply]
  show V c main_v57 _ = V c main_v57 _
  congr 1
  funext a
  apply Fin.ext
  match a with
  | ⟨0, _⟩ => show win0_0.index t 0 * 4000 + 1 * r.val = n.val; rw [e0, hn]; omega
  | ⟨1, _⟩ => show win0_0.index t 1 * 128 + 1 * k.val = k.val; rw [e1]; omega

/-- The propagated-feature window's block at point `t` is the same rows of the propagated array. -/
theorem blockT (r : Fin 4000) (k : Fin 128) (n : Fin 100000) (hn : n.val = 4000 * t.val + r.val) :
    (Gen.iblk0 (F := Ideal) V c 1 t : Vec Ideal S4000x128 .bf16) (ix2 r k) = (V c main_v58 : S100000x128.Idx → EReal) (ix2 n k) := by
  obtain ⟨-, -, e0, e1, -⟩ := index_maps t
  unfold Gen.iblk0
  rw [View.read_apply]
  show V c main_v58 _ = V c main_v58 _
  congr 1
  funext a
  apply Fin.ext
  match a with
  | ⟨0, _⟩ => show win0_1.index t 0 * 4000 + 1 * r.val = n.val; rw [e0, hn]; omega
  | ⟨1, _⟩ => show win0_1.index t 1 * 128 + 1 * k.val = k.val; rw [e1]; omega

/-- The first weight window's block is the whole weight array at every point. -/
theorem blockA (k : Fin 128) (o : Fin 32) :
    (Gen.iblk0 (F := Ideal) V c 2 t : Vec Ideal S128x32 .bf16) (ix2 k o) = (V c main_v59 : S128x32.Idx → EReal) (ix2 k o) := by
  obtain ⟨-, -, -, -, e0, e1, -⟩ := index_maps t
  unfold Gen.iblk0
  rw [View.read_apply]
  show V c main_v59 _ = V c main_v59 _
  congr 1
  funext a
  apply Fin.ext
  match a with
  | ⟨0, _⟩ => show win0_2.index t 0 * 128 + 1 * k.val = k.val; rw [e0]; omega
  | ⟨1, _⟩ => show win0_2.index t 1 * 32 + 1 * o.val = o.val; rw [e1]; omega

/-- The second weight window's block is the whole weight array at every point. -/
theorem blockB (k : Fin 128) (o : Fin 32) :
    (Gen.iblk0 (F := Ideal) V c 3 t : Vec Ideal S128x32 .bf16) (ix2 k o) = (V c main_v60 : S128x32.Idx → EReal) (ix2 k o) := by
  obtain ⟨-, -, -, -, -, -, e0, e1, -⟩ := index_maps t
  unfold Gen.iblk0
  rw [View.read_apply]
  show V c main_v60 _ = V c main_v60 _
  congr 1
  funext a
  apply Fin.ext
  match a with
  | ⟨0, _⟩ => show win0_3.index t 0 * 128 + 1 * k.val = k.val; rw [e0]; omega
  | ⟨1, _⟩ => show win0_3.index t 1 * 32 + 1 * o.val = o.val; rw [e1]; omega

/-- The bias window's block is the whole one-row bias array at every point. -/
theorem blockBias (o : Fin 32) :
    (Gen.iblk0 (F := Ideal) V c 4 t : Vec Ideal S1x32 .f32) (ix2 (0 : Fin 1) o) = (V c main_v61 : S1x32.Idx → EReal) (ix2 (0 : Fin 1) o) := by
  obtain ⟨-, -, -, -, -, -, -, -, e0, e1, -⟩ := index_maps t
  unfold Gen.iblk0
  rw [View.read_apply]
  show V c main_v61 _ = V c main_v61 _
  congr 1
  funext a
  apply Fin.ext
  match a with
  | ⟨0, _⟩ => show win0_4.index t 0 * 1 + 1 * (0 : Fin 1).val = (0 : Fin 1).val; rw [e0]; rfl
  | ⟨1, _⟩ => show win0_4.index t 1 * 32 + 1 * o.val = o.val; rw [e1]; omega

end Blocks

/-- Over blocks whose entries are the whole arrays' entries (row `r` of the block being row `n` of the array), the
    body's entry is the hidden layer's entry at (n, o). -/
theorem payload_eq_hidden (x0 x1 : FVec Ideal S4000x128 .bf16) (x2 x3 : FVec Ideal S128x32 .bf16) (x4 : FVec Ideal S1x32 .f32)
    (X T : S100000x128.Idx → EReal) (A B : S128x32.Idx → EReal) (b : S1x32.Idx → EReal)
    (r : Fin 4000) (o : Fin 32) (n : Fin 100000)
    (hX : ∀ k : Fin 128, (x0 (ix2 r k) : EReal) = X (ix2 n k)) (hT : ∀ k : Fin 128, (x1 (ix2 r k) : EReal) = T (ix2 n k))
    (hA : ∀ k : Fin 128, (x2 (ix2 k o) : EReal) = A (ix2 k o)) (hB : ∀ k : Fin 128, (x3 (ix2 k o) : EReal) = B (ix2 k o))
    (hb : (x4 (ix2 (0 : Fin 1) o) : EReal) = b (ix2 (0 : Fin 1) o)) :
    (Gen.k0_pay1 (F := Ideal) x0 x1 x2 x3 x4 (ix2 r o) : EReal) = Cert.Cheb.hidden X T A B b (ix2 n o) := by
  rw [payload_entry, Cert.Cheb.hidden_apply]
  unfold Cert.Cheb.affine
  simp only [hX, hT, hA, hB, hb]

section Array
variable (V : (c : Dev nD) → (b : Ref sig .tc) → Buf (Elt Ideal) ((c : Thread nD τ).loc b)) (c : Dev nD)

/-- What grid point `t` writes back is block `t` of the hidden layer of the five arrays as the region finds them. -/
theorem flushed_eq (t : Fin cfg0.N) :
    (Gen.dat0 (F := Ideal) V c).flushed 5 t
      = ((cfg0.win 5).blk t).view.read (Elt Ideal)
          (Cert.Cheb.hidden (V c main_v57) (V c main_v58) (V c main_v59) (V c main_v60) (V c main_v61)) := by
  show (cfg0.win 5).cut (grid0.coords t) ((Gen.dat0 V c).after 5 t) = _
  rw [Gen.after0_5]
  unfold Gen.out0_5
  rw [View.canon_unit_zero offsets_zero]
  simp only [View.ld_unit_zero (S := S4000x128) offsets_zero, View.ld_unit_zero (S := S128x32) offsets_zero,
    View.ld_unit_zero (S := S1x32) offsets_zero]
  obtain ⟨-, -, -, -, -, -, -, -, -, -, e0, e1⟩ := index_maps t
  have ht : t.val < 25 := lt_of_lt_of_eq t.isLt Gen.N_0
  refine funext fun (j : S4000x32.Idx) => ?_
  obtain ⟨r, o, rfl⟩ : ∃ (r : Fin 4000) (o : Fin 32), j = ix2 r o := ⟨j 0, j 1, eq_ix2 j⟩
  have hr : r.val < 4000 := r.isLt
  show (Gen.k0_pay1 (F := Ideal) (Gen.iblk0 V c 0 t) (Gen.iblk0 V c 1 t) (Gen.iblk0 V c 2 t) (Gen.iblk0 V c 3 t) (Gen.iblk0 V c 4 t) (ix2 r o) : EReal)
      = Cert.Cheb.hidden (V c main_v57) (V c main_v58) (V c main_v59) (V c main_v60) (V c main_v61) (((cfg0.win 5).blk t).view.emb (ix2 r o))
  have he : ((cfg0.win 5).blk t).view.emb (ix2 r o) = ix2 (⟨4000 * t.val + r.val, by omega⟩ : Fin 100000) o := by
    funext a
    apply Fin.ext
    match a with
    | ⟨0, _⟩ => show win0_5.index t 0 * 4000 + 1 * r.val = 4000 * t.val + r.val; rw [e0]; omega
    | ⟨1, _⟩ => show win0_5.index t 1 * 32 + 1 * o.val = o.val; rw [e1]; omega
  rw [he]
  exact payload_eq_hidden _ _ _ _ _ _ _ _ _ _ r o _ (fun k => blockX V c t r k _ rfl) (fun k => blockT V c t r k _ rfl)
    (fun k => blockA V c t k o) (fun k => blockB V c t k o) (blockBias V c t o)

/-- An index of the output array is in point `t`'s block iff each coordinate is in the block's range on its axis. -/
theorem mem_block (t : Fin cfg0.N) (i : S100000x32.Idx) :
    i ∈ ((cfg0.win 5).blk t).view.set ↔ ∀ a : Fin 2, win0_5.index t a * S4000x32.size a ≤ (i a).val ∧ (i a).val < win0_5.index t a * S4000x32.size a + S4000x32.size a := by
  show i ∈ ((View.whole main_v62).slice (win0_5.rect t)).set ↔ _
  rw [View.set_slice_whole, Rect.mem_set_unit]
  exact Iff.rfl

/-- Every entry of the output array is written: row `n` by grid point `n / 4000`. -/
theorem covered (i : S100000x32.Idx) : ∃ t : Fin cfg0.N, (cfg0.win 5).flush t = true ∧ i ∈ ((cfg0.win 5).blk t).view.set := by
  have hN : cfg0.N = 25 := Gen.N_0
  have hi0 : (i 0).val < 100000 := (i 0).isLt
  have hi1 : (i 1).val < 32 := (i 1).isLt
  obtain ⟨t, ht⟩ : ∃ t : Fin cfg0.N, t.val = (i 0).val / 4000 := ⟨⟨(i 0).val / 4000, by rw [hN]; omega⟩, rfl⟩
  obtain ⟨-, -, -, -, -, -, -, -, -, -, e0, e1⟩ := index_maps t
  refine ⟨t, Gen.flush0_5 t, ?_⟩
  rw [mem_block]
  intro a
  match a with
  | ⟨0, _⟩ => show win0_5.index t 0 * 4000 ≤ (i 0).val ∧ (i 0).val < win0_5.index t 0 * 4000 + 4000; rw [e0, ht]; omega
  | ⟨1, _⟩ => show win0_5.index t 1 * 32 ≤ (i 1).val ∧ (i 1).val < win0_5.index t 1 * 32 + 32; rw [e1]; omega

end Array

/-- After the 25 grid points the first layer's output array is the hidden layer of the five input arrays as the region
    finds them: every point writes its block of that function, and the blocks cover the array. -/
theorem region0_value (V : (c : Dev nD) → (b : Ref sig .tc) → Buf (Elt Ideal) ((c : Thread nD τ).loc b)) (c : Dev nD) :
    (Gen.dat0 (F := Ideal) V c).arrAt 5 cfg0.N
      = Cert.Cheb.hidden (V c main_v57) (V c main_v58) (V c main_v59) (V c main_v60) (V c main_v61) :=
  Pipeline.Dat.arrAt_eq_of_cover (Gen.dat0 V c) 5 _ (fun t _ => flushed_eq V c t) (covered)

end Cert.KernelIdeal.Layer1
end
-- ==== Proof.Layer2Kernel.lean ====
/-
  The second layer's region, read as a function of whole arrays.

  At each of the 25 grid points the body takes 4000 rows of the hidden features H and of their propagated copy T, the
  whole weight matrices A and B and the bias row b, forms H·A + T·B + b on those rows, and takes the row-wise
  log-softmax: with m the row's maximum, z - m - log (Σ exp (z - m)). Read entry by entry, a matrix product into a zero
  block is the sum over the 32 shared features, a reduction along the columns is the fold of max, or the sum, over the
  row's forty entries, and a column kept as [4000, 1] and broadcast back reads the row's value in every column. So the
  block a point writes is the 4000 rows it owns of one function of the whole arrays, the specification's; the points'
  blocks cover all 100000 rows, and the output array ends holding that function.
-/
import proofs.«117465_j4320737100470_1_alg».proof.Proof.Gen.KernelIdeal.Frame
import proofs.«117465_j4320737100470_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Layer2
open Idealize.ShloMosaic Idealize.ShloMosaic.TcCoe Idealize.SL.Sem Cert.KernelIdeal Cert.KernelIdeal.Gen
open Idealize.ShloMosaic.ValueIdx

/-- The block before the softmax: the two products into zero blocks added, plus the bias row on every row. -/
def affineBlock (x0 x1 : FVec Ideal S4000x32 .bf16) (x2 x3 : FVec Ideal S32x40 .bf16) (x4 : FVec Ideal S1x40 .f32) : FVec Ideal S4000x40 .f32 :=
  addf (addf (matmul dot_S4000x32_S32x40_S4000x40_1_0_0_1_n_n none x0 x2 (constant S4000x40 .f32 0x00000000#32))
             (matmul dot_S4000x32_S32x40_S4000x40_1_0_0_1_n_n none x1 x3 (constant S4000x40 .f32 0x00000000#32)))
       (broadcastTo S4000x40 x4 broadcasts_S1x40_S4000x40)

/-- Each row's maximum, folded along the forty columns from minus infinity. -/
def rowMaxBlock (v : FVec Ideal S4000x40 .f32) : FVec Ideal S4000 .f32 :=
  multiReduction .maximumf [1] S4000 v 0xFF800000#32 reduces_S4000x40_S4000 (.inl rfl) rfl

/-- The block with each row's maximum subtracted from that row. -/
def shiftedBlock (v : FVec Ideal S4000x40 .f32) : FVec Ideal S4000x40 .f32 :=
  subf v (broadcastTo S4000x40 (shapeCast S4000x1 (rowMaxBlock v) shapeCasts_S4000_S4000x1) broadcasts_S4000x1_S4000x40)

/-- Each row's sum along the forty columns. -/
def rowSumBlock (w : FVec Ideal S4000x40 .f32) : FVec Ideal S4000 .f32 :=
  multiReduction .add [1] S4000 w 0x00000000#32 reduces_S4000x40_S4000 (.inl rfl) rfl

/-- The shifted block minus, on each row, the logarithm of the row sum of its exponentials. -/
def logSoftmaxBlock (v : FVec Ideal S4000x40 .f32) : FVec Ideal S4000x40 .f32 :=
  subf (shiftedBlock v) (broadcastTo S4000x40 (log (shapeCast S4000x1 (rowSumBlock (exp (shiftedBlock v))) shapeCasts_S4000_S4000x1)) broadcasts_S4000x1_S4000x40)

/-- The body's arithmetic is that closing arithmetic applied to the affine block (the casts to the same shape are the identity). -/
theorem payload_eq (x0 x1 : FVec Ideal S4000x32 .bf16) (x2 x3 : FVec Ideal S32x40 .bf16) (x4 : FVec Ideal S1x40 .f32) :
    Gen.k1_pay1 x0 x1 x2 x3 x4 = logSoftmaxBlock (affineBlock x0 x1 x2 x3 x4) := by
  unfold Gen.k1_pay1 logSoftmaxBlock shiftedBlock rowSumBlock rowMaxBlock affineBlock
  simp only [shapeCast_self]

/-- The product's operand indices at output index i and contraction index q: the left operand is read at (row of i, q), the right at (q, column of i). -/
theorem lhs_row (i : S4000x40.Idx) (q : dot_S4000x32_S32x40_S4000x40_1_0_0_1_n_n.contr.Idx) :
    (dot_S4000x32_S32x40_S4000x40_1_0_0_1_n_n.lhsIdx i q 0).val = (i 0).val := by
  unfold DotDims.lhsIdx
  rw [dif_neg (show ¬(0 : Fin S4000x32.rank) ∈ dot_S4000x32_S32x40_S4000x40_1_0_0_1_n_n.lhsBatch by decide),
    dif_pos (show (0 : Fin S4000x32.rank) ∈ dot_S4000x32_S32x40_S4000x40_1_0_0_1_n_n.lhsNonContracting by decide)]
  rfl

theorem lhs_contr (i : S4000x40.Idx) (q : dot_S4000x32_S32x40_S4000x40_1_0_0_1_n_n.contr.Idx) :
    (dot_S4000x32_S32x40_S4000x40_1_0_0_1_n_n.lhsIdx i q 1).val = (q ⟨0, by decide⟩).val :=
  dot_S4000x32_S32x40_S4000x40_1_0_0_1_n_n.lhsIdx_val_of_single rfl i q

theorem rhs_contr (i : S4000x40.Idx) (q : dot_S4000x32_S32x40_S4000x40_1_0_0_1_n_n.contr.Idx) :
    (dot_S4000x32_S32x40_S4000x40_1_0_0_1_n_n.rhsIdx i q 0).val = (q ⟨0, by decide⟩).val :=
  dot_S4000x32_S32x40_S4000x40_1_0_0_1_n_n.rhsIdx_val_of_single rfl i q

theorem rhs_col (i : S4000x40.Idx) (q : dot_S4000x32_S32x40_S4000x40_1_0_0_1_n_n.contr.Idx) :
    (dot_S4000x32_S32x40_S4000x40_1_0_0_1_n_n.rhsIdx i q 1).val = (i 1).val := by
  unfold DotDims.rhsIdx
  rw [dif_neg (show ¬(1 : Fin S32x40.rank) ∈ dot_S4000x32_S32x40_S4000x40_1_0_0_1_n_n.rhsBatch by decide),
    dif_pos (show (1 : Fin S32x40.rank) ∈ dot_S4000x32_S32x40_S4000x40_1_0_0_1_n_n.rhsNonContracting by decide)]
  rfl

/-- One matrix product into the zero block, at row r and column o: the sum over the 32 shared features. -/
theorem product_apply (x : FVec Ideal S4000x32 .bf16) (w : FVec Ideal S32x40 .bf16) (r : Fin 4000) (o : Fin 40) :
    matmul dot_S4000x32_S32x40_S4000x40_1_0_0_1_n_n none x w (constant S4000x40 .f32 0x00000000#32) (ix2 r o)
      = ∑ k : Fin 32, x (ix2 r k) * w (ix2 k o) := by
  show FloatOps.matmul dot_S4000x32_S32x40_S4000x40_1_0_0_1_n_n none x w (constant S4000x40 .f32 0x00000000#32) (ix2 r o) = _
  rw [Ideal.matmul_constant_zero_apply, ← Equiv.sum_comp (contrEquiv1 dot_S4000x32_S32x40_S4000x40_1_0_0_1_n_n 32 rfl rfl).symm]
  refine Finset.sum_congr rfl fun k _ => ?_
  have hk := contrEquiv1_symm_val dot_S4000x32_S32x40_S4000x40_1_0_0_1_n_n 32 rfl rfl k
  have el : dot_S4000x32_S32x40_S4000x40_1_0_0_1_n_n.lhsIdx (ix2 r o) ((contrEquiv1 dot_S4000x32_S32x40_S4000x40_1_0_0_1_n_n 32 rfl rfl).symm k) = ix2 r k :=
    funext fun a => Fin.ext (by
      match a with
      | ⟨0, _⟩ => exact lhs_row _ _
      | ⟨1, _⟩ => exact (lhs_contr _ _).trans hk)
  have er : dot_S4000x32_S32x40_S4000x40_1_0_0_1_n_n.rhsIdx (ix2 r o) ((contrEquiv1 dot_S4000x32_S32x40_S4000x40_1_0_0_1_n_n 32 rfl rfl).symm k) = ix2 k o :=
    funext fun a => Fin.ext (by
      match a with
      | ⟨0, _⟩ => exact (rhs_contr _ _).trans hk
      | ⟨1, _⟩ => exact rhs_col _ _)
  rw [el, er]

/-- The affine block at row r and column o is the specification's affine entry of the five blocks. -/
theorem affineBlock_apply (x0 x1 : FVec Ideal S4000x32 .bf16) (x2 x3 : FVec Ideal S32x40 .bf16) (x4 : FVec Ideal S1x40 .f32) (r : Fin 4000) (o : Fin 40) :
    affineBlock x0 x1 x2 x3 x4 (ix2 r o) = Cert.Cheb.affine x0 x1 x2 x3 x4 r o := by
  unfold affineBlock Cert.Cheb.affine
  rw [addf_apply, addf_apply, product_apply, product_apply, broadcastTo_1b_ab_apply]

section Columns
variable {α : Type}

/-- A vector of length a viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-- The row maximum the block computes, at row r: the fold of max over the row's forty entries from minus infinity. -/
theorem rowMaxBlock_apply (v : FVec Ideal S4000x40 .f32) (r : Fin 4000) :
    rowMaxBlock v (ix1 r) = Cert.Cheb.rowMax (fun k => v (ix2 r k)) := by
  unfold rowMaxBlock Cert.Cheb.rowMax
  refine (Ideal.multiReduction_maximumf_single v 0xFF800000#32 reduces_S4000x40_S4000 (.inl rfl) rfl (ix1 r)).trans ?_
  have e : (v ∘ reduces_S4000x40_S4000.lift (ix1 r)) = fun k : Fin 40 => v (ix2 r k) :=
    funext fun k => congrArg v (funext fun a => Fin.ext (by
      match a with
      | ⟨0, _⟩ => rfl
      | ⟨1, _⟩ => rfl))
  rw [e]
  rfl

/-- The row sum the block computes, at row r. -/
theorem rowSumBlock_apply (w : FVec Ideal S4000x40 .f32) (r : Fin 4000) :
    rowSumBlock w (ix1 r) = ∑ k : Fin 40, w (ix2 r k) := by
  unfold rowSumBlock
  refine (Ideal.multiReduction_add_single w 0x00000000#32 reduces_S4000x40_S4000 (.inl rfl) rfl (ix1 r)).trans ?_
  refine Finset.sum_congr rfl fun k _ => congrArg w (funext fun a => Fin.ext (by
      match a with
      | ⟨0, _⟩ => rfl
      | ⟨1, _⟩ => rfl))

/-- The shifted block at (r, o): the entry minus its row's maximum. -/
theorem shiftedBlock_apply (v : FVec Ideal S4000x40 .f32) (r : Fin 4000) (o : Fin 40) :
    shiftedBlock v (ix2 r o) = v (ix2 r o) - Cert.Cheb.rowMax (fun k => v (ix2 r k)) := by
  unfold shiftedBlock
  rw [subf_apply, broadcastTo_a1_ab_apply, shapeCast_a_a1_apply, rowMaxBlock_apply]

/-- The block's closing arithmetic is the row-wise log-softmax. -/
theorem logSoftmaxBlock_apply (v : FVec Ideal S4000x40 .f32) (r : Fin 4000) (o : Fin 40) :
    logSoftmaxBlock v (ix2 r o) = Cert.Cheb.logSoftmaxRow (fun k => v (ix2 r k)) o := by
  unfold logSoftmaxBlock Cert.Cheb.logSoftmaxRow
  rw [subf_apply, broadcastTo_a1_ab_apply, shiftedBlock_apply]
  show _ - Ideal.log (shapeCast S4000x1 (rowSumBlock (exp (shiftedBlock v))) shapeCasts_S4000_S4000x1 (ix2 r (0 : Fin 1))) = _
  rw [shapeCast_a_a1_apply, rowSumBlock_apply]
  have e : ∀ k : Fin 40, exp (shiftedBlock v) (ix2 r k) = Ideal.exp (v (ix2 r k) - Cert.Cheb.rowMax (fun k => v (ix2 r k))) := fun k => by
    show Ideal.exp (shiftedBlock v (ix2 r k)) = _
    rw [shiftedBlock_apply]
  simp only [e]

/-- The block's payload at row r and column o: the log-softmax of the affine row. -/
theorem payload_apply (x0 x1 : FVec Ideal S4000x32 .bf16) (x2 x3 : FVec Ideal S32x40 .bf16) (x4 : FVec Ideal S1x40 .f32) (r : Fin 4000) (o : Fin 40) :
    Gen.k1_pay1 (F := Ideal) x0 x1 x2 x3 x4 (ix2 r o) = Cert.Cheb.logSoftmaxRow (fun k => Cert.Cheb.affine x0 x1 x2 x3 x4 r k) o := by
  rw [payload_eq, logSoftmaxBlock_apply]
  simp only [affineBlock_apply]

section Blocks
variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-- The windows' index maps over the grid: the three row-blocked windows sit at block (t, 0), the three whole ones at (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The hidden-feature block at point t holds rows 4000 t … 4000 t + 3999 of its array. -/
theorem hiddenBlock_apply (c : Dev nD) (t : Fin cfg1.N) (p : Fin 4000) (k : Fin 32) (n : Fin 100000) (hn : n.val = 4000 * t.val + p.val) :
    (Gen.iblk1 V c 0 t : Vec Ideal S4000x32 .bf16) (ix2 p k) = (V c main_v76 : S100000x32.Idx → EReal) (ix2 n k) := by
  obtain ⟨e0, e1, -⟩ := block_indices t
  unfold Gen.iblk1
  rw [View.read_apply]
  show V c main_v76 _ = V c main_v76 _
  congr 1
  funext a
  apply Fin.ext
  match a with
  | ⟨0, _⟩ => show win1_0.index t 0 * 4000 + 1 * p.val = n.val; rw [e0, hn]; omega
  | ⟨1, _⟩ => show win1_0.index t 1 * 32 + 1 * k.val = k.val; rw [e1]; omega

/-- So does the propagated-feature block. -/
theorem propagatedBlock_apply (c : Dev nD) (t : Fin cfg1.N) (p : Fin 4000) (k : Fin 32) (n : Fin 100000) (hn : n.val = 4000 * t.val + p.val) :
    (Gen.iblk1 V c 1 t : Vec Ideal S4000x32 .bf16) (ix2 p k) = (V c main_v77 : S100000x32.Idx → EReal) (ix2 n k) := by
  obtain ⟨-, -, e0, e1, -⟩ := block_indices t
  unfold Gen.iblk1
  rw [View.read_apply]
  show V c main_v77 _ = V c main_v77 _
  congr 1
  funext a
  apply Fin.ext
  match a with
  | ⟨0, _⟩ => show win1_1.index t 0 * 4000 + 1 * p.val = n.val; rw [e0, hn]; omega
  | ⟨1, _⟩ => show win1_1.index t 1 * 32 + 1 * k.val = k.val; rw [e1]; omega

/-- The two weight blocks and the bias block are their whole arrays at every point. -/
theorem weightsA_apply (c : Dev nD) (t : Fin cfg1.N) (k : Fin 32) (o : Fin 40) :
    (Gen.iblk1 V c 2 t : Vec Ideal S32x40 .bf16) (ix2 k o) = (V c main_v78 : S32x40.Idx → EReal) (ix2 k o) := by
  obtain ⟨-, -, -, -, e0, e1, -⟩ := block_indices t
  unfold Gen.iblk1
  rw [View.read_apply]
  show V c main_v78 _ = V c main_v78 _
  congr 1
  funext a
  apply Fin.ext
  match a with
  | ⟨0, _⟩ => show win1_2.index t 0 * 32 + 1 * k.val = k.val; rw [e0]; omega
  | ⟨1, _⟩ => show win1_2.index t 1 * 40 + 1 * o.val = o.val; rw [e1]; omega

theorem weightsB_apply (c : Dev nD) (t : Fin cfg1.N) (k : Fin 32) (o : Fin 40) :
    (Gen.iblk1 V c 3 t : Vec Ideal S32x40 .bf16) (ix2 k o) = (V c main_v79 : S32x40.Idx → EReal) (ix2 k o) := by
  obtain ⟨-, -, -, -, -, -, e0, e1, -⟩ := block_indices t
  unfold Gen.iblk1
  rw [View.read_apply]
  show V c main_v79 _ = V c main_v79 _
  congr 1
  funext a
  apply Fin.ext
  match a with
  | ⟨0, _⟩ => show win1_3.index t 0 * 32 + 1 * k.val = k.val; rw [e0]; omega
  | ⟨1, _⟩ => show win1_3.index t 1 * 40 + 1 * o.val = o.val; rw [e1]; omega

theorem bias_apply (c : Dev nD) (t : Fin cfg1.N) (u : Fin 1) (o : Fin 40) :
    (Gen.iblk1 V c 4 t : Vec Ideal S1x40 .f32) (ix2 u o) = (V c main_v80 : S1x40.Idx → EReal) (ix2 u o) := by
  obtain ⟨-, -, -, -, -, -, -, -, e0, e1, -⟩ := block_indices t
  unfold Gen.iblk1
  rw [View.read_apply]
  show V c main_v80 _ = V c main_v80 _
  congr 1
  funext a
  apply Fin.ext
  match a with
  | ⟨0, _⟩ => show win1_4.index t 0 * 1 + 1 * u.val = u.val; rw [e0]; omega
  | ⟨1, _⟩ => show win1_4.index t 1 * 40 + 1 * o.val = o.val; rw [e1]; omega

/-- The affine row of the blocks at point t, row p, is the affine row of the whole arrays at row 4000 t + p. -/
theorem affine_of_blocks (c : Dev nD) (t : Fin cfg1.N) (p : Fin 4000) (o : Fin 40) (n : Fin 100000) (hn : n.val = 4000 * t.val + p.val) :
    Cert.Cheb.affine (Gen.iblk1 V c 0 t : Vec Ideal S4000x32 .bf16) (Gen.iblk1 V c 1 t : Vec Ideal S4000x32 .bf16)
        (Gen.iblk1 V c 2 t : Vec Ideal S32x40 .bf16) (Gen.iblk1 V c 3 t : Vec Ideal S32x40 .bf16) (Gen.iblk1 V c 4 t : Vec Ideal S1x40 .f32) p o
      = Cert.Cheb.affine (V c main_v76) (V c main_v77) (V c main_v78) (V c main_v79) (V c main_v80) n o := by
  unfold Cert.Cheb.affine
  rw [bias_apply V c t 0 o]
  simp only [hiddenBlock_apply V c t p _ n hn, propagatedBlock_apply V c t p _ n hn, weightsA_apply V c t, weightsB_apply V c t]

/-- What point t writes back is block t of the log-softmax of the affine map of the whole arrays. -/
theorem flushed_eq (c : Dev nD) (t : Fin cfg1.N) :
    (Gen.dat1 (F := Ideal) V c).flushed 5 t
      = ((cfg1.win 5).blk t).view.read (Elt Ideal)
          (Cert.Cheb.logits (V c main_v76) (V c main_v77) (V c main_v78) (V c main_v79) (V c main_v80)) := by
  show (cfg1.win 5).cut (grid1.coords t) ((Gen.dat1 V c).after 5 t) = _
  rw [Gen.after1_5]
  unfold Gen.out1_5
  rw [View.canon_unit_zero zero_offsets]
  simp only [View.ld_unit_zero (S := S4000x32) zero_offsets, View.ld_unit_zero (S := S32x40) zero_offsets, View.ld_unit_zero (S := S1x40) zero_offsets]
  funext j
  obtain ⟨p, q, rfl⟩ : ∃ (p : Fin 4000) (q : Fin 40), j = ix2 p q := ⟨j 0, j 1, eq_ix2 j⟩
  have hN : grid1.N = 25 := Gen.N_1
  have ht : t.val < 25 := hN ▸ t.isLt
  obtain ⟨-, -, -, -, -, -, -, -, -, -, e0, e1⟩ := block_indices t
  have hn : 4000 * t.val + p.val < 100000 := by have := p.isLt; omega
  have hemb : ((cfg1.win 5).blk t).view.emb (ix2 p q) = (ix2 (⟨4000 * t.val + p.val, hn⟩ : Fin 100000) q : S100000x40.Idx) := by
    funext a
    apply Fin.ext
    match a with
    | ⟨0, _⟩ => show win1_5.index t 0 * 4000 + 1 * p.val = 4000 * t.val + p.val; rw [e0]; omega
    | ⟨1, _⟩ => show win1_5.index t 1 * 40 + 1 * q.val = q.val; rw [e1]; omega
  show Gen.k1_pay1 (F := Ideal) (Gen.iblk1 V c 0 t) (Gen.iblk1 V c 1 t) (Gen.iblk1 V c 2 t) (Gen.iblk1 V c 3 t) (Gen.iblk1 V c 4 t) (ix2 p q)
      = Cert.Cheb.logits (V c main_v76) (V c main_v77) (V c main_v78) (V c main_v79) (V c main_v80) (((cfg1.win 5).blk t).view.emb (ix2 p q))
  rw [hemb, Cert.Cheb.logits_apply]
  refine (payload_apply _ _ _ _ _ p q).trans ?_
  refine congrArg (fun z => Cert.Cheb.logSoftmaxRow z q) (funext fun k => ?_)
  exact affine_of_blocks V c t p k _ rfl

/-- Every row of the output lies in the block of the point its index divided by 4000 names. -/
theorem cover (i : S100000x40.Idx) : ∃ t : Fin cfg1.N, (cfg1.win 5).flush t = true ∧ i ∈ ((cfg1.win 5).blk t).view.set := by
  have hN : grid1.N = 25 := Gen.N_1
  have h0 : (i 0).val < 100000 := (i 0).isLt
  have h1 : (i 1).val < 40 := (i 1).isLt
  have ht : (i 0).val / 4000 < cfg1.N := by show (i 0).val / 4000 < grid1.N; rw [hN]; omega
  refine ⟨⟨(i 0).val / 4000, ht⟩, Gen.flush1_5 _, ?_⟩
  obtain ⟨-, -, -, -, -, -, -, -, -, -, e0, e1⟩ := block_indices ⟨(i 0).val / 4000, ht⟩
  show i ∈ ((View.whole main_v81).slice (win1_5.rect ⟨(i 0).val / 4000, ht⟩)).set
  rw [View.set_slice_whole, Rect.mem_set_unit]
  intro a
  match a with
  | ⟨0, _⟩ =>
    show win1_5.index ⟨(i 0).val / 4000, ht⟩ 0 * 4000 ≤ (i 0).val ∧ (i 0).val < win1_5.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win1_5.index ⟨(i 0).val / 4000, ht⟩ 1 * 40 ≤ (i 1).val ∧ (i 1).val < win1_5.index ⟨(i 0).val / 4000, ht⟩ 1 * 40 + 40
    rw [e1]; omega

end Blocks

/-- After the 25 points the output array is the log-softmax of the affine map of the five input arrays: every point writes
    its block of that function, and the 25 blocks of 4000 rows cover the 100000 rows. -/
theorem region1_value (V : (c : Dev nD) → (b : Ref sig .tc) → Buf (Elt Ideal) ((c : Thread nD τ).loc b)) (c : Dev nD) :
    (Gen.dat1 (F := Ideal) V c).arrAt 5 cfg1.N
      = Cert.Cheb.logits (V c main_v76) (V c main_v77) (V c main_v78) (V c main_v79) (V c main_v80) :=
  (Gen.dat1 (F := Ideal) V c).arrAt_eq_of_cover 5 _ (fun t _ => flushed_eq V c t) cover

end Cert.KernelIdeal.Layer2
end
-- ==== Proof.RefLayers.lean ====
/-
  The reference's two layers, read as the shared specification.

  The reference forms each layer as two matrix products added, plus the branch-summed bias broadcast down the rows.
  Read at an entry (n, o), a product is the sum over the shared feature axis, the broadcast bias is the bias row's
  entry o, so the sum of the three is the specification's affine entry. The first layer takes the maximum with zero.
  The second takes the row-wise log-softmax in five steps: the row maximum (a fold of max from minus infinity, which
  taking the maximum with minus infinity once more does not change), the shifted entries, their exponentials, the row
  sum of those from zero, its logarithm subtracted — the specification's log-softmax of the affine row.
-/
import proofs.«117465_j4320737100470_1_alg».proof.Proof.RefRead
import proofs.«117465_j4320737100470_1_alg».proof.Proof.Spec
import Idealize.ShloMosaic.Lib.Pipeline.Value
import Idealize.ShloMosaic.Lib.ValueIdx
import Idealize.ShloMosaic.PureOps.Ideal.Laws

noncomputable section
namespace Cert.ReferenceIdeal.Layers
open Idealize.ShloMosaic Idealize.ShloMosaic.TcCoe Idealize.SL.Sem Cert.ReferenceIdeal Cert.ReferenceIdeal.ReadP

/-- The reference's hidden layer (after relu) is the specification's, of the features, the propagated features,
    the two summed weight matrices and the summed bias as a row. -/
theorem hidden_eq (x0 : (⟨S100000x128, .f32⟩ : BufTy).Contents (Elt Ideal)) (x1 : (⟨S2x600000, .i32⟩ : BufTy).Contents (Elt Ideal))
    (x2 : (⟨S3x2x128x32, .f32⟩ : BufTy).Contents (Elt Ideal)) (x3 : (⟨S3x32, .f32⟩ : BufTy).Contents (Elt Ideal)) :
    val_main_v56 (F := Ideal) x0 x1 x2 x3
      = Cert.Cheb.hidden x0 (val_main_v42 (F := Ideal) x0 x1) (val_main_v45 (F := Ideal) x2) (val_main_v49 (F := Ideal) x2)
          (val_main_v53 (F := Ideal) x3) := by
  funext j
  obtain ⟨n, o, rfl⟩ : ∃ (n : Fin 100000) (o : Fin 32), j = ValueIdx.ix2 n o := ⟨j 0, j 1, ValueIdx.eq_ix2 j⟩
  rw [Cert.Cheb.hidden_apply]
  -- read the relu, the two additions, the two products and the bias broadcast at (n, o)
  rw [val_main_v56_apply, val_main_v55_apply, val_main_v51_apply, val_main_v46_apply, val_main_v50_apply,
    val_main_v54_apply, val_main_call1_v0_apply, val_main_call1_cst_apply]
  generalize val_main_v42 (F := Ideal) x0 x1 = T
  generalize val_main_v45 (F := Ideal) x2 = A
  generalize val_main_v49 (F := Ideal) x2 = B
  generalize val_main_v53 (F := Ideal) x3 = b
  -- the operands' indices are the row n with the summation position, the summation position with the column o, and the bias at (0, o)
  have e1 : ∀ k : Fin 128, lidx_main_v46 (ValueIdx.ix2 n o) k = ValueIdx.ix2 n k := fun k =>
    funext fun a => Fin.ext (by match a with | ⟨0, _⟩ => rfl | ⟨1, _⟩ => rfl)
  have e2 : ∀ k : Fin 128, ridx_main_v46 (ValueIdx.ix2 n o) k = ValueIdx.ix2 k o := fun k =>
    funext fun a => Fin.ext (by match a with | ⟨0, _⟩ => rfl | ⟨1, _⟩ => rfl)
  have e3 : ∀ k : Fin 128, lidx_main_v50 (ValueIdx.ix2 n o) k = ValueIdx.ix2 n k := fun k =>
    funext fun a => Fin.ext (by match a with | ⟨0, _⟩ => rfl | ⟨1, _⟩ => rfl)
  have e4 : ∀ k : Fin 128, ridx_main_v50 (ValueIdx.ix2 n o) k = ValueIdx.ix2 k o := fun k =>
    funext fun a => Fin.ext (by match a with | ⟨0, _⟩ => rfl | ⟨1, _⟩ => rfl)
  have e5 : idx_main_v54 (ValueIdx.ix2 n o) = ValueIdx.ix2 (0 : Fin 1) o :=
    funext fun a => Fin.ext (by match a with | ⟨0, _⟩ => rfl | ⟨1, _⟩ => rfl)
  unfold Cert.Cheb.affine
  simp only [e1, e2, e3, e4, e5, Ideal.maximumf_def, Ideal.addf_def, Ideal.ofBits_def]

/-- Entry (n, k) of the reference's second affine map — two products, their sum and the bias row — is the specification's
    affine map of the hidden features, their propagated copy, the two summed weight matrices and the summed bias. -/
theorem affine_read (x0 : (⟨S100000x128, .f32⟩ : BufTy).Contents (Elt Ideal)) (x1 : (⟨S2x600000, .i32⟩ : BufTy).Contents (Elt Ideal))
    (x2 : (⟨S3x2x128x32, .f32⟩ : BufTy).Contents (Elt Ideal)) (x3 : (⟨S3x32, .f32⟩ : BufTy).Contents (Elt Ideal))
    (x4 : (⟨S3x2x32x40, .f32⟩ : BufTy).Contents (Elt Ideal)) (x5 : (⟨S3x40, .f32⟩ : BufTy).Contents (Elt Ideal))
    (n : Fin 100000) (k : Fin 40) :
    val_main_v82 (F := Ideal) x0 x1 x2 x3 x4 x5 (ValueIdx.ix2 n k)
      = Cert.Cheb.affine (val_main_v56 (F := Ideal) x0 x1 x2 x3) (val_main_v69 (F := Ideal) x0 x1 x2 x3)
          (val_main_v72 (F := Ideal) x4) (val_main_v76 (F := Ideal) x4) (val_main_v80 (F := Ideal) x5) n k := by
  rw [val_main_v82_apply, val_main_v78_apply, val_main_v73_apply, val_main_v77_apply, val_main_v81_apply]
  generalize val_main_v56 (F := Ideal) x0 x1 x2 x3 = H
  generalize val_main_v69 (F := Ideal) x0 x1 x2 x3 = T
  generalize val_main_v72 (F := Ideal) x4 = A
  generalize val_main_v76 (F := Ideal) x4 = B
  generalize val_main_v80 (F := Ideal) x5 = b
  have e1 : ∀ q : Fin 32, lidx_main_v73 (ValueIdx.ix2 n k) q = ValueIdx.ix2 n q := fun q =>
    funext fun a => Fin.ext (by match a with | ⟨0, _⟩ => rfl | ⟨1, _⟩ => rfl)
  have e2 : ∀ q : Fin 32, ridx_main_v73 (ValueIdx.ix2 n k) q = ValueIdx.ix2 q k := fun q =>
    funext fun a => Fin.ext (by match a with | ⟨0, _⟩ => rfl | ⟨1, _⟩ => rfl)
  have e3 : ∀ q : Fin 32, lidx_main_v77 (ValueIdx.ix2 n k) q = ValueIdx.ix2 n q := fun q =>
    funext fun a => Fin.ext (by match a with | ⟨0, _⟩ => rfl | ⟨1, _⟩ => rfl)
  have e4 : ∀ q : Fin 32, ridx_main_v77 (ValueIdx.ix2 n k) q = ValueIdx.ix2 q k := fun q =>
    funext fun a => Fin.ext (by match a with | ⟨0, _⟩ => rfl | ⟨1, _⟩ => rfl)
  have e5 : idx_main_v81 (ValueIdx.ix2 n k) = ValueIdx.ix2 (0 : Fin 1) k :=
    funext fun a => Fin.ext (by match a with | ⟨0, _⟩ => rfl | ⟨1, _⟩ => rfl)
  unfold Cert.Cheb.affine
  simp only [e1, e2, e3, e4, e5, Ideal.addf_def]

/-- The maximum over the class axis, folded from minus infinity, of any array of logits at row n is the row maximum of
    that row. -/
theorem rowMax_read (z : (⟨S100000x40, .f32⟩ : BufTy).Contents (Elt Ideal)) (n : Fin 100000) :
    Host.reduce (FloatOps.maximumf (F := Ideal) (φ := .f32)) z (val_main_call2_cst (F := Ideal)) Gen.reducesTo_S100000x40_S100000_d1 Gen.h_S_ (ValueIdx.ix1 n)
      = Cert.Cheb.rowMax (fun k => z (ValueIdx.ix2 n k)) := by
  rw [Host.reduce_eq_fold_single (FloatOps.maximumf (F := Ideal) (φ := .f32)) z _ Gen.reducesTo_S100000x40_S100000_d1 (by decide) Gen.h_S_]
  unfold Cert.Cheb.rowMax
  exact Finset.fold_congr fun k _ =>
    congrArg z (funext fun a => Fin.ext (by match a with | ⟨0, _⟩ => rfl | ⟨1, _⟩ => rfl))

/-- The shifted logits: entry (n, k) minus the maximum of row n (the second maximum with minus infinity changes nothing). -/
theorem shift_read (x0 : (⟨S100000x128, .f32⟩ : BufTy).Contents (Elt Ideal)) (x1 : (⟨S2x600000, .i32⟩ : BufTy).Contents (Elt Ideal))
    (x2 : (⟨S3x2x128x32, .f32⟩ : BufTy).Contents (Elt Ideal)) (x3 : (⟨S3x32, .f32⟩ : BufTy).Contents (Elt Ideal))
    (x4 : (⟨S3x2x32x40, .f32⟩ : BufTy).Contents (Elt Ideal)) (x5 : (⟨S3x40, .f32⟩ : BufTy).Contents (Elt Ideal))
    (n : Fin 100000) (k : Fin 40) :
    val_main_call2_v5 (F := Ideal) x0 x1 x2 x3 x4 x5 (ValueIdx.ix2 n k)
      = val_main_v82 (F := Ideal) x0 x1 x2 x3 x4 x5 (ValueIdx.ix2 n k)
        - Cert.Cheb.rowMax (fun q => val_main_v82 (F := Ideal) x0 x1 x2 x3 x4 x5 (ValueIdx.ix2 n q)) := by
  rw [val_main_call2_v5_apply, val_main_call2_v4_apply, val_main_call2_v3_apply, val_main_call2_v2_apply,
    val_main_call2_v1_apply, val_main_call2_cst_0_apply]
  have e : idx_main_call2_v3 (idx_main_call2_v4 (ValueIdx.ix2 n k)) = ValueIdx.ix1 n :=
    funext fun a => Fin.ext (by match a with | ⟨0, _⟩ => rfl)
  rw [e]
  unfold val_main_call2_v0
  generalize val_main_v82 (F := Ideal) x0 x1 x2 x3 x4 x5 = z
  rw [rowMax_read]
  simp only [Ideal.subf_def, Ideal.maximumf_def, Ideal.ofBits_def]
  rw [show max (Ideal.ofBits .f32 0xFF800000#32) (Cert.Cheb.rowMax fun q => z (ValueIdx.ix2 n q))
        = Cert.Cheb.rowMax fun q => z (ValueIdx.ix2 n q) from Cert.Cheb.max_start_fold _ _]

/-- The sum over the class axis of the exponentials of the shifted logits of row n, from the float zero. -/
theorem expSum_read (x0 : (⟨S100000x128, .f32⟩ : BufTy).Contents (Elt Ideal)) (x1 : (⟨S2x600000, .i32⟩ : BufTy).Contents (Elt Ideal))
    (x2 : (⟨S3x2x128x32, .f32⟩ : BufTy).Contents (Elt Ideal)) (x3 : (⟨S3x32, .f32⟩ : BufTy).Contents (Elt Ideal))
    (x4 : (⟨S3x2x32x40, .f32⟩ : BufTy).Contents (Elt Ideal)) (x5 : (⟨S3x40, .f32⟩ : BufTy).Contents (Elt Ideal))
    (n : Fin 100000) :
    val_main_call2_v7 (F := Ideal) x0 x1 x2 x3 x4 x5 (ValueIdx.ix1 n)
      = ∑ k : Fin 40, Ideal.exp (val_main_v82 (F := Ideal) x0 x1 x2 x3 x4 x5 (ValueIdx.ix2 n k)
          - Cert.Cheb.rowMax (fun q => val_main_v82 (F := Ideal) x0 x1 x2 x3 x4 x5 (ValueIdx.ix2 n q))) := by
  rw [val_main_call2_v7_apply, val_main_call2_cst_1_apply]
  have e : ∀ k : Fin 40, idx_main_call2_v7 (ValueIdx.ix1 n) k = ValueIdx.ix2 n k := fun k =>
    funext fun a => Fin.ext (by match a with | ⟨0, _⟩ => rfl | ⟨1, _⟩ => rfl)
  simp only [e, val_main_call2_v6_apply, shift_read, Ideal.hostUnary_exp_def, Ideal.ofBits_def, Ideal.ofBits_zero_f32, zero_add]

/-- The reference's log-softmax at (n, o) is the specification's row-wise log-softmax of row n of its logits. -/
theorem logSoftmax_read (x0 : (⟨S100000x128, .f32⟩ : BufTy).Contents (Elt Ideal)) (x1 : (⟨S2x600000, .i32⟩ : BufTy).Contents (Elt Ideal))
    (x2 : (⟨S3x2x128x32, .f32⟩ : BufTy).Contents (Elt Ideal)) (x3 : (⟨S3x32, .f32⟩ : BufTy).Contents (Elt Ideal))
    (x4 : (⟨S3x2x32x40, .f32⟩ : BufTy).Contents (Elt Ideal)) (x5 : (⟨S3x40, .f32⟩ : BufTy).Contents (Elt Ideal))
    (n : Fin 100000) (o : Fin 40) :
    val_main_v83 (F := Ideal) x0 x1 x2 x3 x4 x5 (ValueIdx.ix2 n o)
      = Cert.Cheb.logSoftmaxRow (fun k => val_main_v82 (F := Ideal) x0 x1 x2 x3 x4 x5 (ValueIdx.ix2 n k)) o := by
  rw [val_main_v83_apply, val_main_call2_v10_apply, val_main_call2_v9_apply, val_main_call2_v8_apply]
  have e : idx_main_call2_v8 (idx_main_call2_v10 (ValueIdx.ix2 n o)) = ValueIdx.ix1 n :=
    funext fun a => Fin.ext (by match a with | ⟨0, _⟩ => rfl)
  rw [e, shift_read, expSum_read]
  unfold Cert.Cheb.logSoftmaxRow
  simp only [Ideal.subf_def, Ideal.hostUnary_log_def]

/-- The reference's result (after log_softmax) is the specification's output layer of the hidden features, their
    propagated copy, the two summed weight matrices and the summed bias as a row. -/
theorem logits_eq (x0 : (⟨S100000x128, .f32⟩ : BufTy).Contents (Elt Ideal)) (x1 : (⟨S2x600000, .i32⟩ : BufTy).Contents (Elt Ideal))
    (x2 : (⟨S3x2x128x32, .f32⟩ : BufTy).Contents (Elt Ideal)) (x3 : (⟨S3x32, .f32⟩ : BufTy).Contents (Elt Ideal))
    (x4 : (⟨S3x2x32x40, .f32⟩ : BufTy).Contents (Elt Ideal)) (x5 : (⟨S3x40, .f32⟩ : BufTy).Contents (Elt Ideal)) :
    val_main_v83 (F := Ideal) x0 x1 x2 x3 x4 x5
      = Cert.Cheb.logits (val_main_v56 (F := Ideal) x0 x1 x2 x3) (val_main_v69 (F := Ideal) x0 x1 x2 x3)
          (val_main_v72 (F := Ideal) x4) (val_main_v76 (F := Ideal) x4) (val_main_v80 (F := Ideal) x5) := by
  funext j
  obtain ⟨n, o, rfl⟩ : ∃ (n : Fin 100000) (o : Fin 40), j = ValueIdx.ix2 n o := ⟨j 0, j 1, ValueIdx.eq_ix2 j⟩
  rw [Cert.Cheb.logits_apply, logSoftmax_read]
  simp only [affine_read]

end Cert.ReferenceIdeal.Layers
end
-- ==== Proof.LibRow.lean ====
/-
  A vector read as a row. For a vector x of length b, the cast of x to shape [1, b] and the broadcast of x
  along axis 1 into shape [1, b] are the same array: entry (0, q) of either is x(q). Stated for any element
  type and any length.
-/
import Idealize.ShloMosaic.Lib.Pipeline.Value
import Idealize.ShloMosaic.Lib.ValueIdx

namespace Cert.LibRow

open Idealize.ShloMosaic Idealize.ShloMosaic.ValueIdx

variable {α : Type}

/-- Entry (0, q) of the cast of a length-b vector to shape [1, b] is the vector's entry q. -/
theorem shapeCast_row_apply {b : ℕ} (x : (⟨1, ![b]⟩ : Shape).Idx → α)
    (h : (⟨1, ![b]⟩ : Shape).ShapeCasts ⟨2, ![1, b]⟩) (j : (⟨2, ![1, b]⟩ : Shape).Idx) :
    shapeCast ⟨2, ![1, b]⟩ x h j = x (fun a => j a.succ) :=
  shapeCast_addUnit_apply ![b] x h j

/-- Entry (0, q) of the broadcast of a length-b vector along axis 1 into shape [1, b] is the vector's entry q. -/
theorem broadcastInDim_row_apply {b : ℕ} (x : (⟨1, ![b]⟩ : Shape).Idx → α)
    (hb : (⟨1, ![b]⟩ : Shape).BroadcastsInDim ⟨2, ![1, b]⟩ ![1]) (j : (⟨2, ![1, b]⟩ : Shape).Idx) :
    broadcastInDim ⟨2, ![1, b]⟩ ![1] hb x j = x (fun a => j a.succ) := by
  refine broadcastInDim_apply ![1] hb x j (fun a => j a.succ) ?_
  intro d
  match d with
  | ⟨0, _⟩ =>
    show (j 1).val = if b = 1 then 0 else (j 1).val
    split_ifs with hb1
    · have := (j 1).isLt
      simp only [Matrix.cons_val_one, Matrix.cons_val_zero] at this
      omega
    · rfl

/-- The cast to a row and the broadcast to a row are one array. -/
theorem shapeCast_row_eq_broadcastInDim {b : ℕ} (x : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ x h = broadcastInDim ⟨2, ![1, b]⟩ ![1] hb x :=
  funext fun j => (shapeCast_row_apply x h j).trans (broadcastInDim_row_apply x hb j).symm

end Cert.LibRow
-- ==== Proof.Bridge.lean ====
/-
  The two programs compute one function.

  The idealized kernel: its first grid leaves `X·A + T·B + b` clamped at zero, where `X` is the features, `T` their
  propagated copy, `A`, `B`, `b` the branch sums of the first layer's weights and biases — the reference's hidden
  layer, entry by entry. Its host side then propagates that array exactly as the reference propagates its own, and its
  second grid leaves the row-wise log-softmax of `H·A' + T'·B' + b'` — the reference's result. No law of arithmetic
  is needed beyond reading both sides at an index: both programs sum the branches of the weights BEFORE the
  products, add the two products in the same order, and take the log-softmax by the same five steps.
-/
import proofs.«117465_j4320737100470_1_alg».proof.Defs
import proofs.«117465_j4320737100470_1_alg».proof.Proof.Spec
import proofs.«117465_j4320737100470_1_alg».proof.Proof.KernelRun
import proofs.«117465_j4320737100470_1_alg».proof.Proof.KernelHost
import proofs.«117465_j4320737100470_1_alg».proof.Proof.Layer1Kernel
import proofs.«117465_j4320737100470_1_alg».proof.Proof.Layer2Kernel
import proofs.«117465_j4320737100470_1_alg».proof.Proof.RefStages
import proofs.«117465_j4320737100470_1_alg».proof.Proof.RefLayers
import proofs.«117465_j4320737100470_1_alg».proof.Proof.LibRow
import Idealize.ShloMosaic.Lib.ValueIdx

set_option maxRecDepth 16384

noncomputable section

namespace Cert.Bridge

open Idealize.ShloMosaic Idealize.ShloMosaic.TcCoe Idealize.SL.Sem Idealize.ShloMosaic.StableHlo
open Cert.ReferenceIdeal.ReadP

/-- The specification's layers respect equality of their five arrays. -/
theorem hidden_congr {X X' T T' : (⟨2, ![100000, 128]⟩ : Shape).Idx → EReal} {A A' B B' : (⟨2, ![128, 32]⟩ : Shape).Idx → EReal}
    {b b' : (⟨2, ![1, 32]⟩ : Shape).Idx → EReal} (hX : X = X') (hT : T = T') (hA : A = A') (hB : B = B') (hb : b = b') :
    Cert.Cheb.hidden X T A B b = Cert.Cheb.hidden X' T' A' B' b' := by subst hX hT hA hB hb; rfl
theorem logits_congr {H H' T T' : (⟨2, ![100000, 32]⟩ : Shape).Idx → EReal} {A A' B B' : (⟨2, ![32, 40]⟩ : Shape).Idx → EReal}
    {b b' : (⟨2, ![1, 40]⟩ : Shape).Idx → EReal} (hH : H = H') (hT : T = T') (hA : A = A') (hB : B = B') (hb : b = b') :
    Cert.Cheb.logits H T A B b = Cert.Cheb.logits H' T' A' B' b' := by subst hH hT hA hB hb; rfl

section Kernel

open Cert.KernelIdeal Cert.KernelIdeal.Gen

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The first layer's bias row as the first grid reads it is the reference's. -/
theorem bias1 : V3 m ρ c main_v61 = val_main_v53 (F := Ideal) (m ((c.tc : Thread Cert.KernelIdeal.nD Cert.KernelIdeal.τ).loc Cert.KernelIdeal.main_arg3)) :=
  (Cert.KernelIdeal.Host.v3_bias_cast m ρ c).trans (Cert.LibRow.shapeCast_row_eq_broadcastInDim _ _ _)

/-- The second layer's bias row as the second grid reads it is the reference's. -/
theorem bias2 : V5 m ρ c main_v80 = val_main_v80 (F := Ideal) (m ((c.tc : Thread Cert.KernelIdeal.nD Cert.KernelIdeal.τ).loc Cert.KernelIdeal.main_arg5)) :=
  (Cert.KernelIdeal.Host.v5_bias_cast m ρ c).trans (Cert.LibRow.shapeCast_row_eq_broadcastInDim _ _ _)

/-- After the first grid the hidden layer's buffer holds the reference's hidden layer. -/
theorem hidden_value : W4 m ρ c (Proc.devRef .tc main_v62)
    = val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
  (W4_arr m ρ c 5).trans <| (Cert.KernelIdeal.Layer1.region0_value (V3 m ρ) c).trans <|
    (hidden_congr (Cert.KernelIdeal.Host.v3_x m ρ c) (Cert.KernelIdeal.Host.v3_t m ρ c) (Cert.KernelIdeal.Host.v3_a m ρ c)
      (Cert.KernelIdeal.Host.v3_b m ρ c) (bias1 m ρ c)).trans
    (Cert.ReferenceIdeal.Layers.hidden_eq _ _ _ _).symm

/-- After the second grid the result buffer holds the reference's result. -/
theorem kernel_value : W6 m ρ c (Proc.devRef .tc main_v81)
    = val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  (W6_arr m ρ c 5).trans <| (Cert.KernelIdeal.Layer2.region1_value (V5 m ρ) c).trans <|
    (logits_congr (Cert.KernelIdeal.Host.v5_h m ρ c (hidden_value m ρ c)) (Cert.KernelIdeal.Host.v5_t m ρ c (hidden_value m ρ c))
      (Cert.KernelIdeal.Host.v5_a m ρ c) (Cert.KernelIdeal.Host.v5_b m ρ c) (bias2 m ρ c)).trans
    (Cert.ReferenceIdeal.Layers.logits_eq _ _ _ _ _ _).symm

end Kernel

end Cert.Bridge

end
-- ==== Proof.lean ====
/-
  The certificate: a two-layer Chebyshev graph network (order two, three parallel branches per layer) whose dense
  part runs as two gridded kernels, against its plain reference.

  Both programs build the same normalised graph operator from the edge list on the host — degrees by a scatter-add
  of ones, their inverse square roots where positive, the edge weights `-d(row)·d(col)`, propagation as gather, scale,
  scatter-add — and both sum each layer's three branch weight matrices and biases before any product. A layer is then
  `X·A + T·B + b` with `T` the propagated copy of `X`; the first is clamped at zero, the second followed by a
  row-wise log-softmax. The kernel computes each layer in 25 row blocks of 4000 nodes with the operands rounded to a
  narrower format on the way in; on the extended reals rounding is the identity and a block of rows of a matrix
  product is the product of the block, so grid point by grid point it writes the reference's rows.

  The three frame claims are the generated runs; the idealization rewrote nothing, so `preserves` is trivial; the
  algebraic claim names the common result — the reference's last stage as a function of the six arguments — and
  reads both runs at it.
-/
import proofs.«117465_j4320737100470_1_alg».proof.Defs
import proofs.«117465_j4320737100470_1_alg».proof.Proof.Gen.Kernel
import proofs.«117465_j4320737100470_1_alg».proof.Proof.Gen.Kernel.Skeleton
import proofs.«117465_j4320737100470_1_alg».proof.Proof.Gen.Kernel.Launch
import proofs.«117465_j4320737100470_1_alg».proof.Proof.Gen.Kernel.Points
import proofs.«117465_j4320737100470_1_alg».proof.Proof.Gen.Kernel.Frame
import proofs.«117465_j4320737100470_1_alg».proof.Proof.Gen.KernelIdeal
import proofs.«117465_j4320737100470_1_alg».proof.Proof.Gen.KernelIdeal.Skeleton
import proofs.«117465_j4320737100470_1_alg».proof.Proof.Gen.KernelIdeal.Launch
import proofs.«117465_j4320737100470_1_alg».proof.Proof.Gen.KernelIdeal.Points
import proofs.«117465_j4320737100470_1_alg».proof.Proof.Gen.KernelIdeal.Frame
import proofs.«117465_j4320737100470_1_alg».proof.Proof.Gen.ReferenceIdeal
import proofs.«117465_j4320737100470_1_alg».proof.Proof.Gen.Pre_finite_inputs
import proofs.«117465_j4320737100470_1_alg».proof.Proof.KernelRun
import proofs.«117465_j4320737100470_1_alg».proof.Proof.RefStages
import proofs.«117465_j4320737100470_1_alg».proof.Proof.Bridge
import Idealize.ShloMosaic.Adequacy
import Idealize.ShloMosaic.Init

noncomputable section

namespace Cert.Proof

open Idealize.ShloMosaic Idealize.SL.Sem
open Cert.ReferenceIdeal.ReadP

/-- The kernel as printed runs and leaves its arguments alone. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference runs and leaves its arguments alone: its run with the result forgotten. -/
theorem frame_reference : Cert.frame_ReferenceIdeal :=
  fun m ρ _ => (θ_run Cert.ReferenceIdeal.defs _ _).mono (fun _ h c => (h c).2) (Cert.ReferenceIdeal.Stages.run (F := Ideal) m ρ)

/-- Both idealized programs end with the reference's last stage, as a function of the arguments, in their result buffers. -/
theorem algebraic : Cert.algebraic_KernelIdeal_ReferenceIdeal := by
  intro m ρ m' ρ' _ hagree
  refine ⟨fun c => val_main_v83 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Bridge.kernel_value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Stages.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
